-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x65 : Shape := ⟨2, ![8, 65]⟩
abbrev S12288 : Shape := ⟨1, ![12288]⟩
abbrev S64x12288 : Shape := ⟨2, ![64, 12288]⟩
abbrev S_ : Shape := ⟨0, ![]⟩

class Facts : Prop where
  bcast_S_S8x65 : S_.BroadcastsInDim S8x65 (![] : Fin 0 → Fin S8x65.rank)
  reducesTo_S8x65_S_d0_1 : S8x65.ReducesTo [0, 1] S_
  h_S_ : 0 < S_.numel
  bcast_S_S12288 : S_.BroadcastsInDim S12288 (![] : Fin 0 → Fin S12288.rank)
  reducesTo_S12288_S_d0 : S12288.ReducesTo [0] S_
  bcast_S_S64x12288 : S_.BroadcastsInDim S64x12288 (![] : Fin 0 → Fin S64x12288.rank)
  reducesTo_S64x12288_S_d0_1 : S64x12288.ReducesTo [0, 1] S_

variable [Facts]

def fn_part1 {F : FTy → Type} [FloatOps F] (main_arg4 : FVec F S12288 .f32) (main_arg5 : FVec F S64x12288 .f32) (main_v13 : IVec S_ 1) (main_v16 : IVec S64x12288 1) : IVec S_ 1 :=
  let main_c_5 : IVec S_ 1 := constantI S_ 1 1#1
  let main_v17 : IVec S_ 1 := (fun x v => Host.reduce IntOp.andi x v reducesTo_S64x12288_S_d0_1 h_S_) main_v16 main_c_5
  let main_v18 : IVec S_ 1 := andi main_v13 main_v17
  let main_v19 : FVec F S12288 .f32 := Host.absf main_arg4
  let main_cst_6 : FVec F S_ .f32 := constant S_ .f32 0x7F800000#32
  let main_v20 : FVec F S12288 .f32 := broadcastInDim S12288 ![] bcast_S_S12288 main_cst_6
  let main_v21 : IVec S12288 1 := cmpf .olt main_v19 main_v20
  let main_c_7 : IVec S_ 1 := constantI S_ 1 1#1
  let main_v22 : IVec S_ 1 := (fun x v => Host.reduce IntOp.andi x v reducesTo_S12288_S_d0 h_S_) main_v21 main_c_7
  let main_v23 : IVec S_ 1 := andi main_v18 main_v22
  let main_v24 : FVec F S64x12288 .f32 := Host.absf main_arg5
  let main_cst_8 : FVec F S_ .f32 := constant S_ .f32 0x7F800000#32
  let main_v25 : FVec F S64x12288 .f32 := broadcastInDim S64x12288 ![] bcast_S_S64x12288 main_cst_8
  let main_v26 : IVec S64x12288 1 := cmpf .olt main_v24 main_v25
  let main_c_9 : IVec S_ 1 := constantI S_ 1 1#1
  let main_v27 : IVec S_ 1 := (fun x v => Host.reduce IntOp.andi x v reducesTo_S64x12288_S_d0_1 h_S_) main_v26 main_c_9
  let main_v28 : IVec S_ 1 := andi main_v23 main_v27
  main_v28

def fn {F : FTy → Type} [FloatOps F] (main_arg0 : FVec F S8x65 .f32) (main_arg1 : FVec F S8x65 .f32) (main_arg2 : FVec F S12288 .f32) (main_arg3 : FVec F S64x12288 .f32) (main_arg4 : FVec F S12288 .f32) (main_arg5 : FVec F S64x12288 .f32) : IVec S_ 1 :=
  let main_v0 : FVec F S8x65 .f32 := Host.absf main_arg0
  let main_cst : FVec F S_ .f32 := constant S_ .f32 0x7F800000#32
  let main_v1 : FVec F S8x65 .f32 := broadcastInDim S8x65 ![] bcast_S_S8x65 main_cst
  let main_v2 : IVec S8x65 1 := cmpf .olt main_v0 main_v1
  let main_c : IVec S_ 1 := constantI S_ 1 1#1
  let main_v3 : IVec S_ 1 := (fun x v => Host.reduce IntOp.andi x v reducesTo_S8x65_S_d0_1 h_S_) main_v2 main_c
  let main_v4 : FVec F S8x65 .f32 := Host.absf main_arg1
  let main_cst_0 : FVec F S_ .f32 := constant S_ .f32 0x7F800000#32
  let main_v5 : FVec F S8x65 .f32 := broadcastInDim S8x65 ![] bcast_S_S8x65 main_cst_0
  let main_v6 : IVec S8x65 1 := cmpf .olt main_v4 main_v5
  let main_c_1 : IVec S_ 1 := constantI S_ 1 1#1
  let main_v7 : IVec S_ 1 := (fun x v => Host.reduce IntOp.andi x v reducesTo_S8x65_S_d0_1 h_S_) main_v6 main_c_1
  let main_v8 : IVec S_ 1 := andi main_v3 main_v7
  let main_v9 : FVec F S12288 .f32 := Host.absf main_arg2
  let main_cst_2 : FVec F S_ .f32 := constant S_ .f32 0x7F800000#32
  let main_v10 : FVec F S12288 .f32 := broadcastInDim S12288 ![] bcast_S_S12288 main_cst_2
  let main_v11 : IVec S12288 1 := cmpf .olt main_v9 main_v10
  let main_c_3 : IVec S_ 1 := constantI S_ 1 1#1
  let main_v12 : IVec S_ 1 := (fun x v => Host.reduce IntOp.andi x v reducesTo_S12288_S_d0 h_S_) main_v11 main_c_3
  let main_v13 : IVec S_ 1 := andi main_v8 main_v12
  let main_v14 : FVec F S64x12288 .f32 := Host.absf main_arg3
  let main_cst_4 : FVec F S_ .f32 := constant S_ .f32 0x7F800000#32
  let main_v15 : FVec F S64x12288 .f32 := broadcastInDim S64x12288 ![] bcast_S_S64x12288 main_cst_4
  let main_v16 : IVec S64x12288 1 := cmpf .olt main_v14 main_v15
  fn_part1 (F := F) main_arg4 main_arg5 main_v13 main_v16
-- ==== Kernel.lean ====
abbrev S8x65 : Shape := ⟨2, ![8, 65]⟩
abbrev S12288 : Shape := ⟨1, ![12288]⟩
abbrev S64x12288 : Shape := ⟨2, ![64, 12288]⟩
abbrev S8x64 : Shape := ⟨2, ![8, 64]⟩
abbrev S8x1 : Shape := ⟨2, ![8, 1]⟩
abbrev S8 : Shape := ⟨1, ![8]⟩
abbrev S1x12288 : Shape := ⟨2, ![1, 12288]⟩
abbrev S8x12288 : Shape := ⟨2, ![8, 12288]⟩
abbrev S8x4096x3 : Shape := ⟨3, ![8, 4096, 3]⟩
abbrev S8x64x3 : Shape := ⟨3, ![8, 64, 3]⟩
abbrev S8x4096 : Shape := ⟨2, ![8, 4096]⟩
abbrev S8x4096x64 : Shape := ⟨3, ![8, 4096, 64]⟩
abbrev S8x4096x1 : Shape := ⟨3, ![8, 4096, 1]⟩
abbrev S8x1x64 : Shape := ⟨3, ![8, 1, 64]⟩
abbrev S_ : Shape := ⟨0, ![]⟩

abbrev nBuf : Space → Nat
  | .hbm => 33
  | .vmem => 6
  | .smem => 0
  | _ => 0

abbrev bufTy : (tb : Table) → Fin (tcTables nBuf tb) → BufTy
  | .hbm, ⟨0, _⟩ => ⟨S8x65, .f32⟩
  | .hbm, ⟨1, _⟩ => ⟨S8x65, .f32⟩
  | .hbm, ⟨2, _⟩ => ⟨S12288, .f32⟩
  | .hbm, ⟨3, _⟩ => ⟨S64x12288, .f32⟩
  | .hbm, ⟨4, _⟩ => ⟨S12288, .f32⟩
  | .hbm, ⟨5, _⟩ => ⟨S64x12288, .f32⟩
  | .hbm, ⟨6, _⟩ => ⟨S8x64, .f32⟩
  | .hbm, ⟨7, _⟩ => ⟨S8x1, .f32⟩
  | .hbm, ⟨8, _⟩ => ⟨S8, .f32⟩
  | .hbm, ⟨9, _⟩ => ⟨S8x1, .f32⟩
  | .hbm, ⟨10, _⟩ => ⟨S1x12288, .f32⟩
  | .hbm, ⟨11, _⟩ => ⟨S8x12288, .f32⟩
  | .hbm, ⟨12, _⟩ => ⟨S8x12288, .f32⟩
  | .hbm, ⟨13, _⟩ => ⟨S8x12288, .f32⟩
  | .hbm, ⟨14, _⟩ => ⟨S8x12288, .f32⟩
  | .hbm, ⟨15, _⟩ => ⟨S8x12288, .f32⟩
  | .hbm, ⟨16, _⟩ => ⟨S8x4096x3, .f32⟩
  | .hbm, ⟨17, _⟩ => ⟨S8x64, .f32⟩
  | .hbm, ⟨18, _⟩ => ⟨S8x1, .f32⟩
  | .hbm, ⟨19, _⟩ => ⟨S8, .f32⟩
  | .hbm, ⟨20, _⟩ => ⟨S8x1, .f32⟩
  | .hbm, ⟨21, _⟩ => ⟨S1x12288, .f32⟩
  | .hbm, ⟨22, _⟩ => ⟨S8x12288, .f32⟩
  | .hbm, ⟨23, _⟩ => ⟨S8x12288, .f32⟩
  | .hbm, ⟨24, _⟩ => ⟨S8x12288, .f32⟩
  | .hbm, ⟨25, _⟩ => ⟨S8x12288, .f32⟩
  | .hbm, ⟨26, _⟩ => ⟨S8x12288, .f32⟩
  | .hbm, ⟨27, _⟩ => ⟨S8x4096x3, .f32⟩
  | .hbm, ⟨28, _⟩ => ⟨S8, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S8x4096x3, .f32⟩
  | .local _ .vmem, ⟨1, _⟩ => ⟨S8x64x3, .f32⟩
  | .local _ .vmem, ⟨2, _⟩ => ⟨S8x64x3, .f32⟩
  | .local _ .vmem, ⟨3, _⟩ => ⟨S8, .f32⟩
  | .local _ .vmem, ⟨4, _⟩ => ⟨S8x4096, .f32⟩
  | .local _ .vmem, ⟨5, _⟩ => ⟨S8, .f32⟩
  | _, _ => ⟨S8x65, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![64], ![false]⟩

def k0_cond3 (i : grid0.Coords) : BitVec 1 :=
  let arg0 : BitVec 32 := BitVec.ofNat 32 (i 0).val
  let c63_i32 : BitVec 32 := 63#32
  let v28 : BitVec 1 := Scalar.cmpi .eq arg0 c63_i32
  let v29 : BitVec 32 := Scalar.extui v28
  let c0_i32_15 : BitVec 32 := 0#32
  let v30 : BitVec 1 := Scalar.cmpi .ne v29 c0_i32_15
  v30

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S8x4096x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x64x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  slices_S8x65_S8x64_0_0 : S8x65.Slices ![0, 0] S8x64
  slices_S8x65_S8x1_0_64 : S8x65.Slices ![0, 64] S8x1
  shapeCasts_S8x1_S8 : S8x1.ShapeCasts S8
  bcast_S8_S8x1_0 : S8.BroadcastsInDim S8x1 (![0] : Fin 1 → Fin S8x1.rank)
  bcast_S12288_S1x12288_1 : S12288.BroadcastsInDim S1x12288 (![1] : Fin 1 → Fin S1x12288.rank)
  bcast_S1x12288_S8x12288_0_1 : S1x12288.BroadcastsInDim S8x12288 (![0, 1] : Fin 2 → Fin S8x12288.rank)
  bcast_S8x1_S8x12288_0_1 : S8x1.BroadcastsInDim S8x12288 (![0, 1] : Fin 2 → Fin S8x12288.rank)
  shapeCasts_S8x12288_S8x4096x3 : S8x12288.ShapeCasts S8x4096x3
  inb_S8x4096x3_S8x4096x3_0_0_0 : ∀ a, (![0, 0, 0] : Fin 3 → Nat) a + S8x4096x3.size a ≤ S8x4096x3.size a
  h_S8x4096x3 : 0 < S8x4096x3.numel
  shapeCasts_S8x4096x3_S8x4096x3 : S8x4096x3.ShapeCasts S8x4096x3
  inb_S8x64x3_S8x64x3_0_0_0 : ∀ a, (![0, 0, 0] : Fin 3 → Nat) a + S8x64x3.size a ≤ S8x64x3.size a
  h_S8x64x3 : 0 < S8x64x3.numel
  shapeCasts_S8x64x3_S8x64x3 : S8x64x3.ShapeCasts S8x64x3
  reduces_S8x4096x3_S8x4096 : S8x4096x3.Reduces [2] S8x4096
  reduces_S8x64x3_S8x64 : S8x64x3.Reduces [2] S8x64
  shapeCasts_S8x4096_S8x4096x1 : S8x4096.ShapeCasts S8x4096x1
  shapeCasts_S8x64_S8x1x64 : S8x64.ShapeCasts S8x1x64
  broadcasts_S8x4096x1_S8x4096x64 : S8x4096x1.Broadcasts S8x4096x64
  broadcasts_S8x1x64_S8x4096x64 : S8x1x64.Broadcasts S8x4096x64
  reduces_S8x4096x64_S8x4096 : S8x4096x64.Reduces [2] S8x4096
  reduces_S8x4096x64_S8x64 : S8x4096x64.Reduces [1] S8x64
  reduces_S8x64_S8 : S8x64.Reduces [1] S8
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S8_S8_0 : ∀ a, (![0] : Fin 1 → Nat) a + S8.size a ≤ S8.size a
  h_S8 : 0 < S8.numel
  shapeCasts_S8_S8 : S8.ShapeCasts S8
  reduces_S8x4096_S8 : S8x4096.Reduces [1] S8
  reducesTo_S8_S_d0 : S8.ReducesTo [0] S_
  h_S_ : 0 < S_.numel
  dot_S8x64_S64x12288_S8x12288_1_0_0_1_n_n_wf : DotDims.WF S8x64 S64x12288 S8x12288 [1] [0] [0] [1] [] []
  dot_S8x4096x3_S8x64x3_S8x4096x64_2_2_1_1_0_0_wf : DotDims.WF S8x4096x3 S8x64x3 S8x4096x64 [2] [2] [1] [1] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x4096x3.size a ≤ S8x4096x3.size a
  hwx0_0 : ∀ i : grid0.Coords, EltTy.bits .f32 = 32 ∨ (Rect.block (s := S8x4096x3) S8x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64x3.size a ≤ S8x4096x3.size a
  hwx0_1 : ∀ i : grid0.Coords, EltTy.bits .f32 = 32 ∨ (Rect.block (s := S8x4096x3) S8x64x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)

variable [Facts₀]

def dot_S8x64_S64x12288_S8x12288_1_0_0_1_n_n : DotDims S8x64 S64x12288 S8x12288 where
  lhsContracting := [1]
  rhsContracting := [0]
  lhsNonContracting := [0]
  rhsNonContracting := [1]
  lhsBatch := []
  rhsBatch := []
  wf := dot_S8x64_S64x12288_S8x12288_1_0_0_1_n_n_wf
def dot_S8x4096x3_S8x64x3_S8x4096x64_2_2_1_1_0_0 : DotDims S8x4096x3 S8x64x3 S8x4096x64 where
  lhsContracting := [2]
  rhsContracting := [2]
  lhsNonContracting := [1]
  rhsNonContracting := [1]
  lhsBatch := [0]
  rhsBatch := [0]
  wf := dot_S8x4096x3_S8x64x3_S8x4096x64_2_2_1_1_0_0_wf

abbrev win0_0 : Pipeline.Window sig grid0 :=
  Pipeline.Window.ofSpec (Memref.whole main_v21) S8x4096x3.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8x64x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S8.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S8x65 : Shape := ⟨2, ![8, 65]⟩
abbrev S12288 : Shape := ⟨1, ![12288]⟩
abbrev S64x12288 : Shape := ⟨2, ![64, 12288]⟩
abbrev S8x64 : Shape := ⟨2, ![8, 64]⟩
abbrev S8x1 : Shape := ⟨2, ![8, 1]⟩
abbrev S8 : Shape := ⟨1, ![8]⟩
abbrev S1x12288 : Shape := ⟨2, ![1, 12288]⟩
abbrev S8x12288 : Shape := ⟨2, ![8, 12288]⟩
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 66
  | .vmem => 0
  | .smem => 0
  | _ => 0

abbrev bufTy : (tb : Table) → Fin (tcTables nBuf tb) → BufTy
  | .hbm, ⟨0, _⟩ => ⟨S8x65, .f32⟩
  | .hbm, ⟨1, _⟩ => ⟨S8x65, .f32⟩
  | .hbm, ⟨2, _⟩ => ⟨S12288, .f32⟩
  | .hbm, ⟨3, _⟩ => ⟨S64x12288, .f32⟩
  | .hbm, ⟨4, _⟩ => ⟨S12288, .f32⟩
  | .hbm, ⟨5, _⟩ => ⟨S64x12288, .f32⟩
  | .hbm, ⟨6, _⟩ => ⟨S8x64, .f32⟩
  | .hbm, ⟨7, _⟩ => ⟨S8x1, .f32⟩
  | .hbm, ⟨8, _⟩ => ⟨S8, .f32⟩
  | .hbm, ⟨9, _⟩ => ⟨S8x1, .f32⟩
  | .hbm, ⟨10, _⟩ => ⟨S1x12288, .f32⟩
  | .hbm, ⟨11, _⟩ => ⟨S8x12288, .f32⟩
  | .hbm, ⟨12, _⟩ => ⟨S8x12288, .f32⟩
  | .hbm, ⟨13, _⟩ => ⟨S8x12288, .f32⟩
  | .hbm, ⟨14, _⟩ => ⟨S8x12288, .f32⟩
  | .hbm, ⟨15, _⟩ => ⟨S8x12288, .f32⟩
  | .hbm, ⟨16, _⟩ => ⟨S8x4096x3, .f32⟩
  | .hbm, ⟨17, _⟩ => ⟨S8x64, .f32⟩
  | .hbm, ⟨18, _⟩ => ⟨S8x1, .f32⟩
  | .hbm, ⟨19, _⟩ => ⟨S8, .f32⟩
  | .hbm, ⟨20, _⟩ => ⟨S8x1, .f32⟩
  | .hbm, ⟨21, _⟩ => ⟨S1x12288, .f32⟩
  | .hbm, ⟨22, _⟩ => ⟨S8x12288, .f32⟩
  | .hbm, ⟨23, _⟩ => ⟨S8x12288, .f32⟩
  | .hbm, ⟨24, _⟩ => ⟨S8x12288, .f32⟩
  | .hbm, ⟨25, _⟩ => ⟨S8x12288, .f32⟩
  | .hbm, ⟨26, _⟩ => ⟨S8x12288, .f32⟩
  | .hbm, ⟨27, _⟩ => ⟨S8x4096x3, .f32⟩
  | .hbm, ⟨28, _⟩ => ⟨S8x4096x3, .f32⟩
  | .hbm, ⟨29, _⟩ => ⟨S_, .f32⟩
  | .hbm, ⟨30, _⟩ => ⟨S8x4096, .f32⟩
  | .hbm, ⟨31, _⟩ => ⟨S8x4096x3, .f32⟩
  | .hbm, ⟨32, _⟩ => ⟨S_, .f32⟩
  | .hbm, ⟨33, _⟩ => ⟨S8x4096, .f32⟩
  | .hbm, ⟨34, _⟩ => ⟨S8x4096x4096, .f32⟩
  | .hbm, ⟨35, _⟩ => ⟨S8x4096x1, .f32⟩
  | .hbm, ⟨36, _⟩ => ⟨S8x1x4096, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096x4096, .f32⟩
  | .hbm, ⟨46, _⟩ => ⟨S8x4096x4096, .f32⟩
  | .hbm, ⟨47, _⟩ => ⟨S_, .f32⟩
  | .hbm, ⟨48, _⟩ => ⟨S8x4096, .f32⟩
  | .hbm, ⟨49, _⟩ => ⟨S_, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S_, .f32⟩
  | .hbm, ⟨55, _⟩ => ⟨S8x4096, .f32⟩
  | .hbm, ⟨56, _⟩ => ⟨S_, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S8, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S8x65, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩

abbrev nD : Nat := 1
abbrev τ : Topo := Topo.v7x

variable {F : FTy → Type} [FloatOps F]

class Facts₀ : Prop where
  slices_S8x65_S8x64_0_0 : S8x65.Slices ![0, 0] S8x64
  slices_S8x65_S8x1_0_64 : S8x65.Slices ![0, 64] S8x1
  shapeCasts_S8x1_S8 : S8x1.ShapeCasts S8
  bcast_S8_S8x1_0 : S8.BroadcastsInDim S8x1 (![0] : Fin 1 → Fin S8x1.rank)
  bcast_S12288_S1x12288_1 : S12288.BroadcastsInDim S1x12288 (![1] : Fin 1 → Fin S1x12288.rank)
  bcast_S1x12288_S8x12288_0_1 : S1x12288.BroadcastsInDim S8x12288 (![0, 1] : Fin 2 → Fin S8x12288.rank)
  bcast_S8x1_S8x12288_0_1 : S8x1.BroadcastsInDim S8x12288 (![0, 1] : Fin 2 → Fin S8x12288.rank)
  shapeCasts_S8x12288_S8x4096x3 : S8x12288.ShapeCasts S8x4096x3
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  reducesTo_S8x4096x4096_S8x4096_d1 : S8x4096x4096.ReducesTo [1] S8x4096
  reducesTo_S8_S_d0 : S8.ReducesTo [0] S_
  dot_S8x64_S64x12288_S8x12288_1_0_0_1_n_n_wf : DotDims.WF S8x64 S64x12288 S8x12288 [1] [0] [0] [1] [] []
  dot_S8x4096x3_S8x4096x3_S8x4096x4096_2_2_1_1_0_0_wf : DotDims.WF S8x4096x3 S8x4096x3 S8x4096x4096 [2] [2] [1] [1] [0] [0]

variable [Facts₀]

def dot_S8x64_S64x12288_S8x12288_1_0_0_1_n_n : DotDims S8x64 S64x12288 S8x12288 where
  lhsContracting := [1]
  rhsContracting := [0]
  lhsNonContracting := [0]
  rhsNonContracting := [1]
  lhsBatch := []
  rhsBatch := []
  wf := dot_S8x64_S64x12288_S8x12288_1_0_0_1_n_n_wf
def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.KernelPieces.lean ====
/-
  What each control case of the kernel body leaves in the two carried scratch buffers and in the output block, read back
  as values of the blocks it loaded.

  The body has three cases. At the first tile it stores the tile's row minima and the tile's column-minimum sum. At a later
  tile it stores the minimum of the kept row minima and the tile's, and the kept sum plus the tile's. At the last tile it
  does the same and then stores the output block computed from what it has just stored (the two stores are read back whole).
  Each buffer is written by one store that covers it, so what the case leaves is that store's value; every load reads a
  whole buffer at offset zero, so it reads the buffer's contents.
-/
import proofs.«135565_j65747359367629_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- First tile: the row-minimum scratch holds the tile's row minima. -/
theorem rowmin_first (c : Dev nD) (i : grid0.Coords) (arg1 : Memref sig .tc .vmem S8x4096x3 .f32) (harg1 : arg1.IsWhole) (arg2 : Memref sig .tc .vmem S8x64x3 .f32) (harg2 : arg2.IsWhole) (arg3 : Memref sig .tc .vmem S8 .f32) (harg3 : arg3.IsWhole) (arg4 : Memref sig .tc .vmem S8x4096 .f32) (harg4 : arg4.IsWhole) (arg5 : Memref sig .tc .vmem S8 .f32) (harg5 : arg5.IsWhole) (hc0 : cond0_0 i) (hc1 : ¬cond0_1 i) (hc2 : ¬cond0_2 i)
    (x0 : Vec F S8x4096x3 .f32) (x1 : Vec F S8x64x3 .f32) :
    sout0_A_0 c i arg1 harg1 arg2 harg2 arg3 harg3 arg4 harg4 arg5 harg5 hc0 hc1 hc2 x0 x1 = k0_pay4 x0 x1 := by
  unfold sout0_A_0
  rw [View.read_writes_eq_canon _ _ _ (scover0_A_0 c i arg1 harg1 arg2 harg2 arg3 harg3 arg4 harg4 arg5 harg5 hc0 hc1 hc2 x0 x1)]
  unfold kernelRun0_A
  dsimp only
  sl_unfold_words
  rw [View.canon_unit_zero hz2]
  simp only [View.readAt_eq_ld, harg1.read_unread, harg2.read_unread, harg4.read_unread, harg5.read_unread,
    View.ld_unit_zero (S := S8x4096x3) hz3, View.ld_unit_zero (S := S8x64x3) hz3, View.ld_unit_zero (S := S8x4096) hz2,
    View.ld_unit_zero (S := S8) hz1]

/-- First tile: the sum scratch holds the tile's column-minimum sum. -/
theorem colsum_first (c : Dev nD) (i : grid0.Coords) (arg1 : Memref sig .tc .vmem S8x4096x3 .f32) (harg1 : arg1.IsWhole) (arg2 : Memref sig .tc .vmem S8x64x3 .f32) (harg2 : arg2.IsWhole) (arg3 : Memref sig .tc .vmem S8 .f32) (harg3 : arg3.IsWhole) (arg4 : Memref sig .tc .vmem S8x4096 .f32) (harg4 : arg4.IsWhole) (arg5 : Memref sig .tc .vmem S8 .f32) (harg5 : arg5.IsWhole) (hc0 : cond0_0 i) (hc1 : ¬cond0_1 i) (hc2 : ¬cond0_2 i)
    (x0 : Vec F S8x4096x3 .f32) (x1 : Vec F S8x64x3 .f32) :
    sout0_A_1 c i arg1 harg1 arg2 harg2 arg3 harg3 arg4 harg4 arg5 harg5 hc0 hc1 hc2 x0 x1 = k0_pay5 x0 x1 := by
  unfold sout0_A_1
  rw [View.read_writes_eq_canon _ _ _ (scover0_A_1 c i arg1 harg1 arg2 harg2 arg3 harg3 arg4 harg4 arg5 harg5 hc0 hc1 hc2 x0 x1)]
  unfold kernelRun0_A
  dsimp only
  sl_unfold_words
  rw [View.canon_unit_zero hz1]
  simp only [View.readAt_eq_ld, harg1.read_unread, harg2.read_unread, harg4.read_unread, harg5.read_unread,
    View.ld_unit_zero (S := S8x4096x3) hz3, View.ld_unit_zero (S := S8x64x3) hz3, View.ld_unit_zero (S := S8x4096) hz2,
    View.ld_unit_zero (S := S8) hz1]

/-- A later tile: the row-minimum scratch holds the minimum of what it held and the tile's row minima. -/
theorem rowmin_next (c : Dev nD) (i : grid0.Coords) (arg1 : Memref sig .tc .vmem S8x4096x3 .f32) (harg1 : arg1.IsWhole) (arg2 : Memref sig .tc .vmem S8x64x3 .f32) (harg2 : arg2.IsWhole) (arg3 : Memref sig .tc .vmem S8 .f32) (harg3 : arg3.IsWhole) (arg4 : Memref sig .tc .vmem S8x4096 .f32) (harg4 : arg4.IsWhole) (arg5 : Memref sig .tc .vmem S8 .f32) (harg5 : arg5.IsWhole) (hc0 : ¬cond0_0 i) (hc1 : cond0_1 i) (hc2 : ¬cond0_2 i)
    (x0 : Vec F S8x4096x3 .f32) (x1 : Vec F S8x64x3 .f32) (xs0 : Vec F S8x4096 .f32) (xs1 : Vec F S8 .f32) :
    sout0_B_0 c i arg1 harg1 arg2 harg2 arg3 harg3 arg4 harg4 arg5 harg5 hc0 hc1 hc2 x0 x1 xs0 xs1 = k0_pay6 x0 x1 xs0 := by
  unfold sout0_B_0
  rw [View.read_writes_eq_canon _ _ _ (scover0_B_0 c i arg1 harg1 arg2 harg2 arg3 harg3 arg4 harg4 arg5 harg5 hc0 hc1 hc2 x0 x1 xs0 xs1)]
  unfold kernelRun0_B
  dsimp only
  sl_unfold_words
  rw [View.canon_unit_zero hz2]
  simp only [View.readAt_eq_ld, harg1.read_unread, harg2.read_unread, harg4.read_unread, harg5.read_unread,
    View.ld_unit_zero (S := S8x4096x3) hz3, View.ld_unit_zero (S := S8x64x3) hz3, View.ld_unit_zero (S := S8x4096) hz2,
    View.ld_unit_zero (S := S8) hz1]

/-- A later tile: the sum scratch holds what it held plus the tile's column-minimum sum. -/
theorem colsum_next (c : Dev nD) (i : grid0.Coords) (arg1 : Memref sig .tc .vmem S8x4096x3 .f32) (harg1 : arg1.IsWhole) (arg2 : Memref sig .tc .vmem S8x64x3 .f32) (harg2 : arg2.IsWhole) (arg3 : Memref sig .tc .vmem S8 .f32) (harg3 : arg3.IsWhole) (arg4 : Memref sig .tc .vmem S8x4096 .f32) (harg4 : arg4.IsWhole) (arg5 : Memref sig .tc .vmem S8 .f32) (harg5 : arg5.IsWhole) (hc0 : ¬cond0_0 i) (hc1 : cond0_1 i) (hc2 : ¬cond0_2 i)
    (x0 : Vec F S8x4096x3 .f32) (x1 : Vec F S8x64x3 .f32) (xs0 : Vec F S8x4096 .f32) (xs1 : Vec F S8 .f32) :
    sout0_B_1 c i arg1 harg1 arg2 harg2 arg3 harg3 arg4 harg4 arg5 harg5 hc0 hc1 hc2 x0 x1 xs0 xs1 = k0_pay7 x0 x1 xs1 := by
  unfold sout0_B_1
  rw [View.read_writes_eq_canon _ _ _ (scover0_B_1 c i arg1 harg1 arg2 harg2 arg3 harg3 arg4 harg4 arg5 harg5 hc0 hc1 hc2 x0 x1 xs0 xs1)]
  unfold kernelRun0_B
  dsimp only
  sl_unfold_words
  rw [View.canon_unit_zero hz1]
  simp only [View.readAt_eq_ld, harg1.read_unread, harg2.read_unread, harg4.read_unread, harg5.read_unread,
    View.ld_unit_zero (S := S8x4096x3) hz3, View.ld_unit_zero (S := S8x64x3) hz3, View.ld_unit_zero (S := S8x4096) hz2,
    View.ld_unit_zero (S := S8) hz1]

/-- The last tile updates the row-minimum scratch as every later tile does, -/
theorem rowmin_last (c : Dev nD) (i : grid0.Coords) (arg1 : Memref sig .tc .vmem S8x4096x3 .f32) (harg1 : arg1.IsWhole) (arg2 : Memref sig .tc .vmem S8x64x3 .f32) (harg2 : arg2.IsWhole) (arg3 : Memref sig .tc .vmem S8 .f32) (harg3 : arg3.IsWhole) (arg4 : Memref sig .tc .vmem S8x4096 .f32) (harg4 : arg4.IsWhole) (arg5 : Memref sig .tc .vmem S8 .f32) (harg5 : arg5.IsWhole) (hc0 : ¬cond0_0 i) (hc1 : cond0_1 i) (hc2 : cond0_2 i)
    (x0 : Vec F S8x4096x3 .f32) (x1 : Vec F S8x64x3 .f32) (xs0 : Vec F S8x4096 .f32) (xs1 : Vec F S8 .f32) :
    sout0_C_0 c i arg1 harg1 arg2 harg2 arg3 harg3 arg4 harg4 arg5 harg5 hc0 hc1 hc2 x0 x1 xs0 xs1 = k0_pay6 x0 x1 xs0 := by
  unfold sout0_C_0
  rw [View.read_writes_eq_canon _ _ _ (scover0_C_0 c i arg1 harg1 arg2 harg2 arg3 harg3 arg4 harg4 arg5 harg5 hc0 hc1 hc2 x0 x1 xs0 xs1)]
  unfold kernelRun0_C
  dsimp only
  sl_unfold_words
  rw [View.canon_unit_zero hz2]
  simp only [View.readAt_eq_ld, harg1.read_unread, harg2.read_unread, harg4.read_unread, harg5.read_unread,
    View.ld_unit_zero (S := S8x4096x3) hz3, View.ld_unit_zero (S := S8x64x3) hz3, View.ld_unit_zero (S := S8x4096) hz2,
    View.ld_unit_zero (S := S8) hz1]

/-- and the sum scratch likewise; -/
theorem colsum_last (c : Dev nD) (i : grid0.Coords) (arg1 : Memref sig .tc .vmem S8x4096x3 .f32) (harg1 : arg1.IsWhole) (arg2 : Memref sig .tc .vmem S8x64x3 .f32) (harg2 : arg2.IsWhole) (arg3 : Memref sig .tc .vmem S8 .f32) (harg3 : arg3.IsWhole) (arg4 : Memref sig .tc .vmem S8x4096 .f32) (harg4 : arg4.IsWhole) (arg5 : Memref sig .tc .vmem S8 .f32) (harg5 : arg5.IsWhole) (hc0 : ¬cond0_0 i) (hc1 : cond0_1 i) (hc2 : cond0_2 i)
    (x0 : Vec F S8x4096x3 .f32) (x1 : Vec F S8x64x3 .f32) (xs0 : Vec F S8x4096 .f32) (xs1 : Vec F S8 .f32) :
    sout0_C_1 c i arg1 harg1 arg2 harg2 arg3 harg3 arg4 harg4 arg5 harg5 hc0 hc1 hc2 x0 x1 xs0 xs1 = k0_pay7 x0 x1 xs1 := by
  unfold sout0_C_1
  rw [View.read_writes_eq_canon _ _ _ (scover0_C_1 c i arg1 harg1 arg2 harg2 arg3 harg3 arg4 harg4 arg5 harg5 hc0 hc1 hc2 x0 x1 xs0 xs1)]
  unfold kernelRun0_C
  dsimp only
  sl_unfold_words
  rw [View.canon_unit_zero hz1]
  simp only [View.readAt_eq_ld, harg1.read_unread, harg2.read_unread, harg4.read_unread, harg5.read_unread,
    View.ld_unit_zero (S := S8x4096x3) hz3, View.ld_unit_zero (S := S8x64x3) hz3, View.ld_unit_zero (S := S8x4096) hz2,
    View.ld_unit_zero (S := S8) hz1]

/-- and its output block is the finalisation of the two values it has just stored, read back whole. -/
theorem out_last (c : Dev nD) (i : grid0.Coords) (arg1 : Memref sig .tc .vmem S8x4096x3 .f32) (harg1 : arg1.IsWhole) (arg2 : Memref sig .tc .vmem S8x64x3 .f32) (harg2 : arg2.IsWhole) (arg3 : Memref sig .tc .vmem S8 .f32) (harg3 : arg3.IsWhole) (arg4 : Memref sig .tc .vmem S8x4096 .f32) (harg4 : arg4.IsWhole) (arg5 : Memref sig .tc .vmem S8 .f32) (harg5 : arg5.IsWhole) (hc0 : ¬cond0_0 i) (hc1 : cond0_1 i) (hc2 : cond0_2 i)
    (x0 : Vec F S8x4096x3 .f32) (x1 : Vec F S8x64x3 .f32) (xs0 : Vec F S8x4096 .f32) (xs1 : Vec F S8 .f32) :
    out0_C_2 c i arg1 harg1 arg2 harg2 arg3 harg3 arg4 harg4 arg5 harg5 hc0 hc1 hc2 x0 x1 xs0 xs1 = k0_pay8 (k0_pay6 x0 x1 xs0) (k0_pay7 x0 x1 xs1) := by
  unfold out0_C_2
  rw [View.read_writes_eq_canon _ _ _ (cover0_C_2 c i arg1 harg1 arg2 harg2 arg3 harg3 arg4 harg4 arg5 harg5 hc0 hc1 hc2 x0 x1 xs0 xs1)]
  unfold kernelRun0_C
  dsimp only
  sl_unfold_words
  rw [View.canon_unit_zero hz1, View.readCov_unit_zero (S := S8x4096) _ hz2, View.readCov_unit_zero (S := S8) _ hz1]
  simp only [View.readAt_eq_ld, harg1.read_unread, harg2.read_unread, harg4.read_unread, harg5.read_unread,
    View.ld_unit_zero (S := S8x4096x3) hz3, View.ld_unit_zero (S := S8x64x3) hz3, View.ld_unit_zero (S := S8x4096) hz2,
    View.ld_unit_zero (S := S8) hz1]

end Cert.KernelIdeal.Pieces

end
-- ==== Proof.KernelAccum.lean ====
/-
  What the kernel's two carried scratch buffers hold after each grid point, and what the last point writes to the output.

  The grid visits the 64 tiles in order. After the first tile the row-minimum scratch holds the tile's row minima and the
  sum scratch the tile's column-minimum sum; after each later tile, the minimum of what was kept and the tile's, and what
  was kept plus the tile's (`keptMin`, `keptSum`: the recursion the stores spell). That this is what the run leaves is an
  induction on the point over the three control cases. The last point's output block is the finalisation of the two kept
  values after that same point.
-/
import proofs.«135565_j65747359367629_1_alg».proof.Proof.KernelPieces

noncomputable section

open Idealize.ShloMosaic Idealize.ShloMosaic.TcCoe Idealize.SL.Sem

namespace Cert.KernelIdeal.Accum

open Cert.KernelIdeal Cert.KernelIdeal.Gen

variable {F : FTy → Type} [FloatOps F]
variable (m : (ℓ : Loc nD τ sig) → Buf (Elt F) ℓ)

/-- The row minima kept after point `n`. -/
def keptMin (c : Dev nD) : (n : ℕ) → n < cfg0.N → Vec F S8x4096 .f32
  | 0, h => k0_pay4 (iblk m c 0 ⟨0, h⟩) (iblk m c 1 ⟨0, h⟩)
  | n + 1, h => k0_pay6 (iblk m c 0 ⟨n + 1, h⟩) (iblk m c 1 ⟨n + 1, h⟩) (keptMin c n (Nat.lt_of_succ_lt h))

/-- The column-minimum sum kept after point `n`. -/
def keptSum (c : Dev nD) : (n : ℕ) → n < cfg0.N → Vec F S8 .f32
  | 0, h => k0_pay5 (iblk m c 0 ⟨0, h⟩) (iblk m c 1 ⟨0, h⟩)
  | n + 1, h => k0_pay7 (iblk m c 0 ⟨n + 1, h⟩) (iblk m c 1 ⟨n + 1, h⟩) (keptSum c n (Nat.lt_of_succ_lt h))

theorem keptMin_zero (c : Dev nD) (h : 0 < cfg0.N) :
    keptMin m c 0 h = k0_pay4 (iblk m c 0 ⟨0, h⟩) (iblk m c 1 ⟨0, h⟩) := rfl
theorem keptMin_succ (c : Dev nD) (n : ℕ) (h : n + 1 < cfg0.N) :
    keptMin m c (n + 1) h = k0_pay6 (iblk m c 0 ⟨n + 1, h⟩) (iblk m c 1 ⟨n + 1, h⟩) (keptMin m c n (Nat.lt_of_succ_lt h)) := rfl
theorem keptSum_zero (c : Dev nD) (h : 0 < cfg0.N) :
    keptSum m c 0 h = k0_pay5 (iblk m c 0 ⟨0, h⟩) (iblk m c 1 ⟨0, h⟩) := rfl
theorem keptSum_succ (c : Dev nD) (n : ℕ) (h : n + 1 < cfg0.N) :
    keptSum m c (n + 1) h = k0_pay7 (iblk m c 0 ⟨n + 1, h⟩) (iblk m c 1 ⟨n + 1, h⟩) (keptSum m c n (Nat.lt_of_succ_lt h)) := rfl

/-- After every point the two scratch buffers hold the kept row minima and the kept sum. -/
theorem scratch_eq (c : Dev nD) : ∀ (n : ℕ) (h : n < cfg0.N),
    (outsAt0 m c n h).2.1 = keptMin m c n h ∧ (outsAt0 m c n h).2.2 = keptSum m c n h
  | 0, h => by
    have e : outsAt0 m c 0 h = _ :=
      outsAt0_A m c ⟨0, h⟩ rfl (by show ¬1 ≤ 0; omega) (by show ¬0 % 64 = 63; omega)
    rw [e, keptMin_zero, keptSum_zero]
    dsimp only
    constructor
    · exact Pieces.rowmin_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) _ _ _ (iblk m c 0 ⟨0, h⟩) (iblk m c 1 ⟨0, h⟩)
    · exact Pieces.colsum_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) _ _ _ (iblk m c 0 ⟨0, h⟩) (iblk m c 1 ⟨0, h⟩)
  | n + 1, h => by
    have hN : cfg0.N = 64 := N_0
    have hlt : n + 1 < 64 := lt_of_lt_of_eq h hN
    have ih := scratch_eq c n (Nat.lt_of_succ_lt h)
    have h0 : ¬(n + 1) % 64 = 0 := by omega
    have h1 : 1 ≤ n + 1 := by omega
    by_cases h2 : (n + 1) % 64 = 63
    · have e : outsAt0 m c (n + 1) h = _ := outsAt0_C m c ⟨n + 1, h⟩ h0 h1 h2
      rw [e, keptMin_succ, keptSum_succ, ← ih.1, ← ih.2]
      dsimp only
      constructor
      · exact Pieces.rowmin_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) _ _ _ (iblk m c 0 ⟨n + 1, h⟩) (iblk m c 1 ⟨n + 1, h⟩) _ _
      · exact Pieces.colsum_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) _ _ _ (iblk m c 0 ⟨n + 1, h⟩) (iblk m c 1 ⟨n + 1, h⟩) _ _
    · have e : outsAt0 m c (n + 1) h = _ := outsAt0_B m c ⟨n + 1, h⟩ h0 h1 h2
      rw [e, keptMin_succ, keptSum_succ, ← ih.1, ← ih.2]
      dsimp only
      constructor
      · exact Pieces.rowmin_next c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) _ _ _ (iblk m c 0 ⟨n + 1, h⟩) (iblk m c 1 ⟨n + 1, h⟩) _ _
      · exact Pieces.colsum_next c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) _ _ _ (iblk m c 0 ⟨n + 1, h⟩) (iblk m c 1 ⟨n + 1, h⟩) _ _

/-- The last point's output block: the finalisation of the two values kept after it. -/
theorem out_last_eq (c : Dev nD) (n : ℕ) (h : n + 1 < cfg0.N) (h2 : (n + 1) % 64 = 63) :
    (outsAt0 m c (n + 1) h).1 = k0_pay8 (keptMin m c (n + 1) h) (keptSum m c (n + 1) h) := by
  have hN : cfg0.N = 64 := N_0
  have hlt : n + 1 < 64 := lt_of_lt_of_eq h hN
  have h0 : ¬(n + 1) % 64 = 0 := by omega
  have h1 : 1 ≤ n + 1 := by omega
  have e : outsAt0 m c (n + 1) h = _ := outsAt0_C m c ⟨n + 1, h⟩ h0 h1 h2
  have ih := scratch_eq m c n (Nat.lt_of_succ_lt h)
  rw [e, keptMin_succ, keptSum_succ, ← ih.1, ← ih.2]
  dsimp only
  exact Pieces.out_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) _ _ _ (iblk m c 0 ⟨n + 1, h⟩) (iblk m c 1 ⟨n + 1, h⟩) _ _

end Cert.KernelIdeal.Accum

end
-- ==== Proof.KernelRun.lean ====
/-
  The kernel program's run read to its result: what the output array holds after the region, and what @main makes of it.

  Only the last grid point writes the output block back, and that one block is the whole output array, so after the region
  the array holds the last point's block (`final_out`). The host then averages the eight entries (`batchMean`: a sum
  started from 0.0, divided by 8.0); the run leaves that at @main's result and leaves the arguments as they were (`run`).
-/
import proofs.«135565_j65747359367629_1_alg».proof.Proof.KernelAccum
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Accum

variable {F : FTy → Type} [FloatOps F]
variable (m : (ℓ : Loc nD τ sig) → Buf (Elt F) ℓ) (ρ : Dev nD → PrngReg)

/-- The grid's last point is point 63. -/
theorem hLast : 62 + 1 < cfg0.N := by rw [show cfg0.N = 64 from N_0]; omega
abbrev tLast : Fin cfg0.N := ⟨62 + 1, hLast⟩

/-- What the output array holds after the region: the last point's output block. -/
def result (c : Dev nD) : Buf (Elt F) ((c : Thread nD τ).loc main_v22) :=
  k0_pay8 (keptMin m c (62 + 1) hLast) (keptSum m c (62 + 1) hLast)

/-- The mean over the eight batches: what @main does with the output array after the region. -/
def batchMean (r : (⟨S8, .f32⟩ : BufTy).Contents (Elt F)) : (⟨S_, .f32⟩ : BufTy).Contents (Elt F) :=
  Host.divf (Host.reduceAdd r (constant (F := F) S_ .f32 0x00000000#32) reducesTo_S8_S_d0 h_S_) (constant (F := F) S_ .f32 0x41000000#32)

/-- The one write-back, at the last point, writes the last point's output block; the block is the whole array. -/
theorem flushed_eq (c : Dev nD) (t : Fin cfg0.N) (hf : (cfg0.win 2).flush t = true) :
    (dats m 0 c).flushed 2 t = ((cfg0.win 2).blk t).view.read (Elt F) (result m c) := by
  have hN : cfg0.N = 64 := N_0
  have h63 : t.val = 62 + 1 := by have := (flush0_2 t).mp hf; have := t.isLt; omega
  obtain rfl : t = tLast := Fin.ext h63
  show (cfg0.win 2).cut (grid0.coords tLast) ((dats m 0 c).after 2 tLast) = _
  have e : (outsAt0 m c tLast.val tLast.isLt).1 = result m c := out_last_eq m c 62 hLast rfl
  rw [after0_2, e]
  have hz' : (fun a => win0_2.index tLast a * main_v22.ty.shape.size a) = fun _ => 0 := funext fun a => by fin_cases a; decide +kernel
  exact (Memref.read_access_unit_zero (Elt F) main_v22 hz' (fun a => by rw [congrFun hz' a]; simp) (result m c)).symm

/-- So the output array ends holding the last point's output block: the last point covers it. -/
theorem final_out (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v22).slice (win0_2.rect tLast)).set
      rw [View.set_slice_whole, Rect.mem_set_unit]
      intro a
      have h0 : (i 0 : Nat) < 8 := (i 0).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 8 from by decide +kernel]; omega⟩

/-- @main's result after the host operations that follow the region: the mean of the output array's entries. -/
theorem tail_eq (c : Dev nD) :
    Pipeline.afterTail₀ cfgs (dats m) 0 (V0 m) [hostOps1] c main_v24 = batchMean (result m c) := by
  have e := (Pipeline.withArrays_arr spec0 launch0.win.arr_inj c (V0 m c) (fun w => (dats m 0 c).arrAt w (cfgs 0).N) 2).trans
    (final_out m c)
  unfold Pipeline.afterTail₀
  show StableHlo.after hostOps1 _ (Proc.devRef .tc main_v24) = _
  after_results
  exact congrArg batchMean e

/-- The run, read: @main's result at the mean of the output array's entries, the arguments unchanged. -/
theorem run : θ_run defs (onTc (τ := τ) (main (F := F))) ⟨m, fun _ => 0, ρ⟩ (fun r => ∀ c : Dev nD,
      r.2.mem ((c.tc : Thread nD τ).loc main_v24) = batchMean (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v24 (Pipeline.mem_restRefs_of main_v24 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

end Cert.KernelIdeal.Result

end
-- ==== Proof.Chamfer.lean ====
/-
  The chamfer distance of two point clouds on the extended reals, and the two laws that let one cloud be visited a tile of
  64 points at a time.

  For clouds X (points n) and Y (points m) in three coordinates, per batch b, the clamped squared distance is
      d(b, n, m) = max (|X(b,n)|² + |Y(b,m)|² − 2 · ⟨X(b,n), Y(b,m)⟩) 0,
  and the distance of the two clouds is the mean over n of min over m of d, plus the mean over m of min over n of d.

  The 4096 points of Y are cut into 64 tiles of 64: point m = 64 j + c is column c of tile j (`col`, `tiles`).
    * A minimum over all m, started from any value I, is the running minimum over the tiles of each tile's minimum started
      from the same I (`runMin_tiles`): min is idempotent, commutative and associative, so the repeated I does not matter.
      It is proved through the universal property of a minimum (c ≤ the minimum iff c ≤ every entry).
    * A sum over all m is the running sum over the tiles of each tile's sum (`runSum_tiles`): addition of extended reals
      is commutative and associative (no finiteness is needed), and the tiles partition the points.
  Last, the two float words that scale a sum into a mean: 4096.0 is the real 4096 and 2⁻¹² is the real 1/4096, so dividing
  by the first is multiplying by the second on every extended real (`div_4096`).
-/
import Idealize.ShloMosaic.PureOps.Ideal
import Idealize.ShloMosaic.Lib.ValueIdx

noncomputable section

namespace Cert.Chamfer

open Idealize.ShloMosaic

/-- The clamped squared distance of point `n` of `X` and point `m` of `Y` in batch `b`; `two` and `zero` are the values
    of the two float words the programs spell (2.0 and 0.0), kept as they are. -/
def dist (two zero : EReal) {NX NY : ℕ} (X : Fin 8 → Fin NX → Fin 3 → EReal) (Y : Fin 8 → Fin NY → Fin 3 → EReal)
    (b : Fin 8) (n : Fin NX) (m : Fin NY) : EReal :=
  max ((∑ k : Fin 3, X b n k * X b n k) + (∑ k : Fin 3, Y b m k * Y b m k) - two * ∑ k : Fin 3, X b n k * Y b m k) zero

/-- A sum that starts from a value which is zero: the form a host reduction gives the two squared norms. -/
theorem dist_of_init (two zero i : EReal) (hi : i = 0) {NX NY : ℕ} (X : Fin 8 → Fin NX → Fin 3 → EReal)
    (Y : Fin 8 → Fin NY → Fin 3 → EReal) (b : Fin 8) (n : Fin NX) (m : Fin NY) :
    max ((i + ∑ k : Fin 3, X b n k * X b n k) + (i + ∑ k : Fin 3, Y b m k * Y b m k) - two * ∑ k : Fin 3, X b n k * Y b m k) zero
      = dist two zero X Y b n m := by
  subst hi
  unfold dist
  rw [zero_add, zero_add]

/-- The distance of the two clouds of batch `b`: the sum over the points `n` of `X` of the minimum over `m` of the
    distances, divided by `d`, plus the sum over the points `m` of `Y` of the minimum over `n`, times `r` (`d` and `r` the
    values of the words 4096.0 and 2⁻¹²; every minimum starts from `top`). -/
def perBatch (two zero top d r : EReal) (X Y : Fin 8 → Fin 4096 → Fin 3 → EReal) (b : Fin 8) : EReal :=
  Ideal.div (∑ n : Fin 4096, (Finset.univ : Finset (Fin 4096)).fold min top (fun m => dist two zero X Y b n m)) d
    + (∑ m : Fin 4096, (Finset.univ : Finset (Fin 4096)).fold min top (fun n => dist two zero X Y b n m)) * r

/-- Column `c` of tile `j`: point `64 j + c`. -/
def col (j c : Fin 64) : Fin 4096 := ⟨64 * j.val + c.val, by have := j.isLt; have := c.isLt; omega⟩

theorem col_val (j c : Fin 64) : (col j c).val = 64 * j.val + c.val := rfl

/-- The 64 tiles of 64 columns partition the 4096 points. -/
def tiles : Fin 64 × Fin 64 ≃ Fin 4096 where
  toFun p := col p.1 p.2
  invFun m := (⟨m.val / 64, by have := m.isLt; omega⟩, ⟨m.val % 64, by omega⟩)
  left_inv p := by
    rcases p with ⟨j, c⟩
    have hj := j.isLt
    have hc := c.isLt
    exact Prod.ext (Fin.ext (by show (64 * j.val + c.val) / 64 = j.val; omega))
      (Fin.ext (by show (64 * j.val + c.val) % 64 = c.val; omega))
  right_inv m := Fin.ext (by show 64 * (m.val / 64) + m.val % 64 = m.val; omega)

/-- The minimum kept across the tiles: the first tile's, then the minimum of what is kept and the next tile's. -/
def runMin (T : Fin 64 → EReal) : (n : ℕ) → n < 64 → EReal
  | 0, h => T ⟨0, h⟩
  | n + 1, h => min (runMin T n (Nat.lt_of_succ_lt h)) (T ⟨n + 1, h⟩)

/-- A value is below the kept minimum after tile `n` iff it is below every tile's minimum up to `n`. -/
theorem le_runMin_iff (T : Fin 64 → EReal) (c : EReal) :
    ∀ (n : ℕ) (h : n < 64), c ≤ runMin T n h ↔ ∀ j : Fin 64, j.val ≤ n → c ≤ T j
  | 0, h => by
    show c ≤ T ⟨0, h⟩ ↔ _
    constructor
    · intro hc j hj
      have : j = ⟨0, h⟩ := Fin.ext (by show j.val = 0; omega)
      rw [this]; exact hc
    · intro hc; exact hc ⟨0, h⟩ (le_refl _)
  | n + 1, h => by
    show c ≤ min (runMin T n _) (T ⟨n + 1, h⟩) ↔ _
    rw [le_min_iff, le_runMin_iff T c n]
    constructor
    · rintro ⟨h1, h2⟩ j hj
      by_cases hjn : j.val ≤ n
      · exact h1 j hjn
      · have : j = ⟨n + 1, h⟩ := Fin.ext (by show j.val = n + 1; omega)
        rw [this]; exact h2
    · intro hc
      exact ⟨fun j hj => hc j (Nat.le_succ_of_le hj), hc ⟨n + 1, h⟩ (le_refl _)⟩

/-- The running minimum over the 64 tiles of each tile's minimum is the minimum over all 4096 points, whatever value
    `I` every minimum starts from. -/
theorem runMin_tiles (I : EReal) (f : Fin 4096 → EReal) (T : Fin 64 → EReal)
    (hT : ∀ j, T j = (Finset.univ : Finset (Fin 64)).fold min I (fun c => f (col j c))) (h : 63 < 64) :
    runMin T 63 h = (Finset.univ : Finset (Fin 4096)).fold min I f := by
  refine eq_of_forall_le_iff fun c => ?_
  rw [le_runMin_iff, Finset.le_fold_min]
  constructor
  · intro hc
    have h0 := hc ⟨0, by omega⟩ (Nat.zero_le _)
    rw [hT, Finset.le_fold_min] at h0
    refine ⟨h0.1, fun m _ => ?_⟩
    have hm := m.isLt
    have hj := hc ⟨m.val / 64, by omega⟩ (by show m.val / 64 ≤ 63; omega)
    rw [hT, Finset.le_fold_min] at hj
    have hjc := hj.2 ⟨m.val % 64, by omega⟩ (Finset.mem_univ _)
    have e : col ⟨m.val / 64, by omega⟩ ⟨m.val % 64, by omega⟩ = m :=
      Fin.ext (by show 64 * (m.val / 64) + m.val % 64 = m.val; omega)
    rw [e] at hjc
    exact hjc
  · rintro ⟨hI, hf⟩ j _
    rw [hT, Finset.le_fold_min]
    exact ⟨hI, fun c _ => hf _ (Finset.mem_univ _)⟩

/-- The sum kept across the tiles: the first tile's, then what is kept plus the next tile's. -/
def runSum (P : Fin 64 → EReal) : (n : ℕ) → n < 64 → EReal
  | 0, h => P ⟨0, h⟩
  | n + 1, h => runSum P n (Nat.lt_of_succ_lt h) + P ⟨n + 1, h⟩

theorem runSum_eq_range (P : Fin 64 → EReal) :
    ∀ (n : ℕ) (h : n < 64), runSum P n h = ∑ i ∈ Finset.range (n + 1), if hi : i < 64 then P ⟨i, hi⟩ else 0
  | 0, h => by
    show P ⟨0, h⟩ = _
    rw [Finset.sum_range_one, dif_pos h]
  | n + 1, h => by
    show runSum P n _ + P ⟨n + 1, h⟩ = _
    rw [Finset.sum_range_succ, runSum_eq_range P n, dif_pos h]

/-- The running sum over the 64 tiles of each tile's sum is the sum over all 4096 points. -/
theorem runSum_tiles (g : Fin 4096 → EReal) (P : Fin 64 → EReal)
    (hP : ∀ j, P j = ∑ c : Fin 64, g (col j c)) (h : 63 < 64) :
    runSum P 63 h = ∑ m : Fin 4096, g m := by
  rw [runSum_eq_range, ← Finset.sum_fin_eq_sum_range, ← Equiv.sum_comp tiles g, Fintype.sum_prod_type]
  exact Finset.sum_congr rfl fun j _ => hP j

/-- The float word 0.0 is the real zero, -/
theorem ofBits_zero : Ideal.ofBits .f32 0x00000000#32 = 0 := by
  simp [Ideal.ofBits, Ideal.ieee]

/-- 4096.0 is the real 4096, -/
theorem ofBits_4096 : Ideal.ofBits .f32 0x45800000#32 = ((4096 : ℝ) : EReal) := by
  simp [Ideal.ofBits, Ideal.ieee, -EReal.coe_mul]; norm_num

/-- and 2⁻¹² is the real 1/4096. -/
theorem ofBits_inv4096 : Ideal.ofBits .f32 0x39800000#32 = ((1 / 4096 : ℝ) : EReal) := by
  simp [Ideal.ofBits, Ideal.ieee, -EReal.coe_mul]; norm_num

/-- So a division by 4096.0 is the product with 2⁻¹², on every extended real. -/
theorem div_4096 (x : EReal) :
    Ideal.div x (Ideal.ofBits .f32 0x45800000#32) = x * Ideal.ofBits .f32 0x39800000#32 := by
  rw [ofBits_4096, ofBits_inv4096]
  exact Ideal.div_coe (by norm_num) x

/-- The same distance with both sums started from a value which is zero and both divided by 4096.0: the form the
    host's mean takes. -/
theorem perBatch_of_init (two zero top i : EReal) (hi : i = 0) (X Y : Fin 8 → Fin 4096 → Fin 3 → EReal) (b : Fin 8) :
    Ideal.div (i + ∑ n : Fin 4096, (Finset.univ : Finset (Fin 4096)).fold min top (fun m => dist two zero X Y b n m))
        (Ideal.ofBits .f32 0x45800000#32)
      + Ideal.div (i + ∑ m : Fin 4096, (Finset.univ : Finset (Fin 4096)).fold min top (fun n => dist two zero X Y b n m))
        (Ideal.ofBits .f32 0x45800000#32)
      = perBatch two zero top (Ideal.ofBits .f32 0x45800000#32) (Ideal.ofBits .f32 0x39800000#32) X Y b := by
  subst hi
  unfold perBatch
  rw [zero_add, zero_add]
  exact congrArg (_ + ·) (div_4096 _)

end Cert.Chamfer

end
-- ==== Proof.LibMinReduce.lean ====
/-
  Minimum reductions of a rank-3 array read at an entry, at the exact values, for a kernel's vector reduction and for the
  host's reduce with a minimum body.

  `min` on the extended reals is commutative and associative, so a minimum over one axis is, at each kept index, the fold
  of `min` from the starting value over that axis's coordinates, in any order:
    over the trailing axis of [a, b, c], at (p, q): the fold over k of the source at (p, q, k);
    over the middle axis of [a, b, c], at (p, r): the fold over k of the source at (p, k, r).
  (A row minimum `jnp.min(x, axis=-1)` and a column minimum `jnp.min(x, axis=1)` lower to these.)
-/
import Idealize.ShloMosaic.PureOps.Reduce
import Idealize.ShloMosaic.PureOps.Ideal.Laws
import Idealize.ShloMosaic.Lib.ValueIdx

noncomputable section

namespace Cert.Lib.MinReduce

open Idealize.ShloMosaic Idealize.ShloMosaic.ValueIdx

/-- Reducing [a, b, c] over its trailing axis: the kept index `(p, q)` with `k` put back on that axis is `(p, q, k)`. -/
theorem lift_trailing {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- Reducing [a, b, c] over its middle axis: the kept index `(p, r)` with `k` put back on that axis is `(p, k, r)`. -/
theorem lift_middle {a b c : ℕ} (h : (⟨3, ![a, b, c]⟩ : Shape).Reduces [(1 : Fin 3)] ⟨2, ![a, c]⟩)
    (p : Fin a) (r : Fin c) (k : Fin b) : h.lift (ix2 p r) k = ix3 p k r := by
  funext ax
  apply Fin.ext
  match ax with
  | ⟨0, _⟩ => rfl
  | ⟨1, _⟩ => rfl
  | ⟨2, _⟩ => rfl

/-- A vector minimum over ONE axis, at the exact values: the fold of `min` from the accumulator's value over that
    axis's coordinates. -/
theorem multiReduction_min_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A vector minimum of [a, b, c] over its trailing axis, at `(p, q)`. -/
theorem multiReduction_min_trailing {φ : FTy} {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.minimumf.neutral φ hφ) (p : Fin a) (q : Fin b) :
    multiReduction .minimumf [(2 : Fin 3)] ⟨2, ![a, b]⟩ src acc h hφ hacc (ix2 p q)
      = (Finset.univ : Finset (Fin c)).fold min (Ideal.ofBits φ acc) (fun k => src (ix3 p q k)) := by
  refine (multiReduction_min_single src acc h hφ hacc (ix2 p q)).trans ?_
  exact congrArg (Finset.fold min _ · Finset.univ) (funext fun k => congrArg src (lift_trailing h p q k))

/-- A vector minimum of [a, b, c] over its middle axis, at `(p, r)`. -/
theorem multiReduction_min_middle {φ : FTy} {a b c : ℕ} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.minimumf.neutral φ hφ) (p : Fin a) (r : Fin c) :
    multiReduction .minimumf [(1 : Fin 3)] ⟨2, ![a, c]⟩ src acc h hφ hacc (ix2 p r)
      = (Finset.univ : Finset (Fin b)).fold min (Ideal.ofBits φ acc) (fun k => src (ix3 p k r)) := by
  refine (multiReduction_min_single src acc h hφ hacc (ix2 p r)).trans ?_
  exact congrArg (Finset.fold min _ · Finset.univ) (funext fun k => congrArg src (lift_middle h p r k))

/-- The host's minimum of [a, b, c] over its trailing axis, at `(p, q)`: the fold of `min` from the initial value. -/
theorem hostMin_trailing {φ : FTy} {a b c : ℕ} {u : Shape} (y : FVec Ideal ⟨3, ![a, b, c]⟩ φ) (init : u.Idx → Ideal φ)
    (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < u.numel) (p : Fin a) (q : Fin b) :
    Host.reduce FloatOps.minimumf y init h' hu (ix2 p q)
      = (Finset.univ : Finset (Fin c)).fold min (init (Shape.Idx.first hu)) (fun k => y (ix3 p q k)) := by
  refine (Host.reduce_eq_fold_single FloatOps.minimumf y init h' h hu (ix2 p q)).trans ?_
  exact congrArg (Finset.fold min _ · Finset.univ) (funext fun k => congrArg y (lift_trailing h p q k))

/-- The host's minimum of [a, b, c] over its middle axis, at `(p, r)`. -/
theorem hostMin_middle {φ : FTy} {a b c : ℕ} {u : Shape} (y : FVec Ideal ⟨3, ![a, b, c]⟩ φ) (init : u.Idx → Ideal φ)
    (h' : (⟨3, ![a, b, c]⟩ : Shape).ReducesTo [(1 : Fin 3)] ⟨2, ![a, c]⟩)
    (h : (⟨3, ![a, b, c]⟩ : Shape).Reduces [(1 : Fin 3)] ⟨2, ![a, c]⟩) (hu : 0 < u.numel) (p : Fin a) (r : Fin c) :
    Host.reduce FloatOps.minimumf y init h' hu (ix2 p r)
      = (Finset.univ : Finset (Fin b)).fold min (init (Shape.Idx.first hu)) (fun k => y (ix3 p k r)) := by
  refine (Host.reduce_eq_fold_single FloatOps.minimumf y init h' h hu (ix2 p r)).trans ?_
  exact congrArg (Finset.fold min _ · Finset.univ) (funext fun k => congrArg y (lift_middle h p r k))

end Cert.Lib.MinReduce

end
-- ==== Proof.LibBroadcast3.lean ====
/-
  Layout operations of rank three read at an index given by coordinates: the forms a broadcast sum over two leading axes
  and a reduction over the trailing axis with kept dimensions produce.
    [a, b]    cast to      [a, 1, b]   reads (p, u, k) at (p, k);
    [a, b]    cast to      [a, b, 1]   reads (p, q, u) at (p, q);
    [a, 1, b] broadcast to [a, c, b]   reads (p, q, k) at (p, 0, k)   (a row block repeated along the middle axis);
    [1, c, b] broadcast to [a, c, b]   reads (p, q, k) at (0, q, k)   (one matrix repeated along the leading axis);
    [a, b, 1] broadcast to [a, b, c]   reads (p, q, k) at (p, q, 0)   (a column of scalars repeated along the trailing axis);
  and the source index that a reduction of [a, b, c] over its trailing axis inserts coordinate k into, over the result
  index (p, q), is (p, q, k), so that a float sum over that axis reads, at (p, q), the sum over k of the source at (p, q, k).
-/
import Idealize.ShloMosaic.Lib.ValueLayout
import Idealize.ShloMosaic.PureOps.Reduce
import Idealize.ShloMosaic.PureOps.Ideal.Laws

namespace Cert.Broadcast3

open Idealize.ShloMosaic Idealize.ShloMosaic.ValueIdx

variable {α : Type}

/-- An `[a, b]` array cast to `[a, 1, b]` reads, at `(p, u, k)`, the operand at `(p, k)`, whatever the unit coordinate:
    the row-major position of `(p, u, k)` in `[a, 1, b]` is `(p · 1 + 0) · b + k`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (k : Fin b) :
    shapeCast ⟨3, ![a, 1, b]⟩ x h (ix3 p u k) = x (ix2 p k) :=
  shapeCast_apply x h _ _ (by
    have hu : u.val = 0 := by omega
    rw [Shape.rowMajor_val_three, Shape.rowMajor_val_two]
    show p.val * b + k.val = (p.val * 1 + u.val) * b + k.val
    rw [hu, Nat.mul_one, Nat.add_zero])

/-- An `[a, b]` array cast to `[a, b, 1]` reads, at `(p, q, u)`, the operand at `(p, q)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, 1, b]` array broadcast to `[a, c, b]` reads, at `(p, q, k)`, the operand at `(p, 0, k)`. -/
theorem broadcastTo_a1b_acb_apply {a c b : ℕ} (v : (⟨3, ![a, 1, b]⟩ : Shape).Idx → α)
    (h : (⟨3, ![a, 1, b]⟩ : Shape).Broadcasts ⟨3, ![a, c, b]⟩) (p : Fin a) (q : Fin c) (k : Fin b) :
    broadcastTo ⟨3, ![a, c, b]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if b = 1 then 0 else k.val
    split
    · have := k.isLt; omega
    · rfl

/-- A `[1, c, b]` array broadcast to `[a, c, b]` reads, at `(p, q, k)`, the operand at `(0, q, k)`. -/
theorem broadcastTo_1cb_acb_apply {a c b : ℕ} (v : (⟨3, ![1, c, b]⟩ : Shape).Idx → α)
    (h : (⟨3, ![1, c, b]⟩ : Shape).Broadcasts ⟨3, ![a, c, b]⟩) (p : Fin a) (q : Fin c) (k : Fin b) :
    broadcastTo ⟨3, ![a, c, b]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if c = 1 then 0 else q.val
    split
    · have := q.isLt; omega
    · rfl
  | ⟨2, _⟩ =>
    show k.val = if b = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- Reducing `[a, b, c]` over its trailing axis: the source index over the result index `(p, q)` with coordinate `k` on
    the dropped axis is `(p, q, k)`. -/
theorem lift_trailing {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- At the exact values, a float sum of `[a, b, c]` over its trailing axis reads, at `(p, q)`, the sum over `k` of the
    source at `(p, q, k)`. -/
theorem multiReduction_add_trailing {φ : FTy} {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (p : Fin a) (q : Fin b) :
    multiReduction .add [(2 : Fin 3)] ⟨2, ![a, b]⟩ src acc h hφ hacc (ix2 p q) = ∑ k : Fin c, src (ix3 p q k) := by
  refine (Ideal.multiReduction_add_single src acc h hφ hacc (ix2 p q)).trans ?_
  exact Finset.sum_congr rfl fun k _ => congrArg src (lift_trailing h p q k)

end Cert.Broadcast3
-- ==== Proof.LibBlockLayout.lean ====
/-
  Layout operations and row reductions read at an index given by coordinates, in the forms a kernel that works on one
  block of a larger array meets:
    [1, 1, a, b, c] cast to [a, b, c]        reads (i, j, k) at (0, 0, i, j, k);
    [a, b, c]       cast to [1, 1, a, b, c]  reads (u, v, i, j, k) at (i, j, k);
    [a, b]          cast to [1, 1, a, b]     reads (u, v, i, j) at (i, j);
  (each pair of indices has the same row-major position, the unit coordinates contributing nothing), and, at the exact
  values, the maximum of [a, b, c] over its trailing axis at (p, q) as the fold of max over k of the source at (p, q, k);
  the sum and the maximum of [a, b] over its trailing axis at p as the sum, or the fold of max, over k of the source at
  (p, k).
-/
import Idealize.ShloMosaic.Lib.ValueLayout
import Idealize.ShloMosaic.PureOps.Reduce
import Idealize.ShloMosaic.PureOps.Ideal.Laws

namespace Cert.BlockLayout

open Idealize.ShloMosaic Idealize.ShloMosaic.ValueIdx

variable {α : Type}

/-- A `[1, 1, a, b, c]` array cast to `[a, b, c]` reads, at `(i, j, k)`, the operand at `(0, 0, i, j, k)`. -/
theorem shapeCast_11abc_abc_apply {a b c : ℕ} (x : (⟨5, ![1, 1, a, b, c]⟩ : Shape).Idx → α)
    (h : (⟨5, ![1, 1, a, b, c]⟩ : Shape).ShapeCasts ⟨3, ![a, b, c]⟩) (i : Fin a) (j : Fin b) (k : Fin c) :
    shapeCast ⟨3, ![a, b, c]⟩ x h (ix3 i j k) = x (ix5 (0 : Fin 1) (0 : Fin 1) i j k) :=
  shapeCast_apply x h _ _ (by
    rw [Shape.rowMajor_val_three, Shape.rowMajor_val_five]
    show (((0 * 1 + 0) * a + i.val) * b + j.val) * c + k.val = (i.val * b + j.val) * c + k.val
    simp)

/-- An `[a, b, c]` array cast to `[1, 1, a, b, c]` reads, at `(u, v, i, j, k)`, the operand at `(i, j, k)`, whatever
    the two unit coordinates. -/
theorem shapeCast_abc_11abc_apply {a b c : ℕ} (x : (⟨3, ![a, b, c]⟩ : Shape).Idx → α)
    (h : (⟨3, ![a, b, c]⟩ : Shape).ShapeCasts ⟨5, ![1, 1, a, b, c]⟩) (u v : Fin 1) (i : Fin a) (j : Fin b) (k : Fin c) :
    shapeCast ⟨5, ![1, 1, a, b, c]⟩ x h (ix5 u v i j k) = x (ix3 i j k) :=
  shapeCast_apply x h _ _ (by
    have hu : u.val = 0 := by omega
    have hv : v.val = 0 := by omega
    rw [Shape.rowMajor_val_three, Shape.rowMajor_val_five]
    show (i.val * b + j.val) * c + k.val = (((u.val * 1 + v.val) * a + i.val) * b + j.val) * c + k.val
    rw [hu, hv]; simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]; simp)

/-- Reducing `[a, b, c]` over its trailing axis: the source index over `(p, q)` with `k` inserted is `(p, q, k)`. -/
theorem lift_trailing3 {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- At the exact values, the maximum of `[a, b, c]` over its trailing axis reads, at `(p, q)`, the fold of `max` from
    the accumulator's value over `k` of the source at `(p, q, k)`. -/
theorem multiReduction_max_trailing3 {φ : FTy} {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (p : Fin a) (q : Fin b) :
    multiReduction .maximumf [(2 : Fin 3)] ⟨2, ![a, b]⟩ src acc h hφ hacc (ix2 p q)
      = (Finset.univ : Finset (Fin c)).fold max (Ideal.ofBits φ acc) (fun k => src (ix3 p q k)) := by
  refine (Ideal.multiReduction_maximumf_single src acc h hφ hacc (ix2 p q)).trans ?_
  exact congrArg (Finset.fold max _ · Finset.univ) (funext fun k => congrArg src (lift_trailing3 h p q k))

/-- Reducing `[a, b]` over its trailing axis: the source index over `p` with `k` inserted is `(p, k)`. -/
theorem lift_trailing2 {a b : ℕ} (h : (⟨2, ![a, b]⟩ : Shape).Reduces [(1 : Fin 2)] ⟨1, ![a]⟩)
    (p : Fin a) (k : Fin b) : h.lift (ix1 p) k = ix2 p k := by
  funext ax
  apply Fin.ext
  match ax with
  | ⟨0, _⟩ => rfl
  | ⟨1, _⟩ => rfl

/-- At the exact values, a float sum of `[a, b]` over its trailing axis reads, at `p`, the sum over `k` of the source at
    `(p, k)`. -/
theorem multiReduction_add_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (p : Fin a) :
    multiReduction .add [(1 : Fin 2)] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_trailing2 h p k)

/-- At the exact values, the maximum of `[a, b]` over its trailing axis reads, at `p`, the fold of `max` from the
    accumulator's value over `k` of the source at `(p, k)`. -/
theorem multiReduction_max_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (p : Fin a) :
    multiReduction .maximumf [(1 : Fin 2)] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  exact congrArg (Finset.fold max _ · Finset.univ) (funext fun k => congrArg src (lift_trailing2 h p k))

end Cert.BlockLayout
-- ==== Proof.TileValues.lean ====
/-
  The values the kernel body computes from one tile, entry by entry, at the exact values.

  From the resident cloud x0 : [8, 4096, 3] and a tile x1 : [8, 64, 3] of the other cloud the body forms the clamped
  squared distances of the tile, `Chamfer.dist` at (b, n, c) (`tile_dist`: the two squared norms are sums over the three
  coordinates, laid along the rows and the columns; the inner products are a batched contraction over the coordinate);
  the minimum over the tile's columns for each row (`tile_rowmin`), and the sum over the tile's columns of the minimum
  over all rows (`tile_colsum`). Across tiles it keeps the minimum of the row minima (`kept_min`) and the sum of the
  column sums (`kept_sum`), and at the end divides the sum of the kept row minima by 4096 and scales the kept sum by
  2⁻¹² (`finish`).
-/
import proofs.«135565_j65747359367629_1_alg».proof.Proof.Gen.KernelIdeal.Skeleton
import proofs.«135565_j65747359367629_1_alg».proof.Proof.Chamfer
import proofs.«135565_j65747359367629_1_alg».proof.Proof.LibMinReduce
import proofs.«135565_j65747359367629_1_alg».proof.Proof.LibBroadcast3
import proofs.«135565_j65747359367629_1_alg».proof.Proof.LibBlockLayout
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.TileValues

open Cert.KernelIdeal Cert.KernelIdeal.Gen Cert

/-- The float words the body spells: 2.0, 0.0 and +inf (the minimum's starting value), as the values they denote. -/
abbrev two : EReal := Ideal.ofBits .f32 0x40000000#32
abbrev zero : EReal := Ideal.ofBits .f32 0x00000000#32
abbrev top : EReal := Ideal.ofBits .f32 0x7F800000#32

/-! ## The batched contraction over the coordinate axis -/

theorem lhs_0 (i : S8x4096x64.Idx) (q : dot_S8x4096x3_S8x64x3_S8x4096x64_2_2_1_1_0_0.contr.Idx) : (dot_S8x4096x3_S8x64x3_S8x4096x64_2_2_1_1_0_0.lhsIdx i q 0).val = (i 0).val := by
  unfold DotDims.lhsIdx
  rw [dif_pos (show (0 : Fin S8x4096x3.rank) ∈ dot_S8x4096x3_S8x64x3_S8x4096x64_2_2_1_1_0_0.lhsBatch by decide)]
  rfl
theorem lhs_1 (i : S8x4096x64.Idx) (q : dot_S8x4096x3_S8x64x3_S8x4096x64_2_2_1_1_0_0.contr.Idx) : (dot_S8x4096x3_S8x64x3_S8x4096x64_2_2_1_1_0_0.lhsIdx i q 1).val = (i 1).val := by
  unfold DotDims.lhsIdx
  rw [dif_neg (show ¬(1 : Fin S8x4096x3.rank) ∈ dot_S8x4096x3_S8x64x3_S8x4096x64_2_2_1_1_0_0.lhsBatch by decide), dif_pos (show (1 : Fin S8x4096x3.rank) ∈ dot_S8x4096x3_S8x64x3_S8x4096x64_2_2_1_1_0_0.lhsNonContracting by decide)]
  rfl
theorem lhs_2 (i : S8x4096x64.Idx) (q : dot_S8x4096x3_S8x64x3_S8x4096x64_2_2_1_1_0_0.contr.Idx) : (dot_S8x4096x3_S8x64x3_S8x4096x64_2_2_1_1_0_0.lhsIdx i q 2).val = (q ⟨0, by decide⟩).val :=
  dot_S8x4096x3_S8x64x3_S8x4096x64_2_2_1_1_0_0.lhsIdx_val_of_single rfl i q
theorem rhs_0 (i : S8x4096x64.Idx) (q : dot_S8x4096x3_S8x64x3_S8x4096x64_2_2_1_1_0_0.contr.Idx) : (dot_S8x4096x3_S8x64x3_S8x4096x64_2_2_1_1_0_0.rhsIdx i q 0).val = (i 0).val := by
  unfold DotDims.rhsIdx
  rw [dif_pos (show (0 : Fin S8x64x3.rank) ∈ dot_S8x4096x3_S8x64x3_S8x4096x64_2_2_1_1_0_0.rhsBatch by decide)]
  rfl
theorem rhs_1 (i : S8x4096x64.Idx) (q : dot_S8x4096x3_S8x64x3_S8x4096x64_2_2_1_1_0_0.contr.Idx) : (dot_S8x4096x3_S8x64x3_S8x4096x64_2_2_1_1_0_0.rhsIdx i q 1).val = (i 2).val := by
  unfold DotDims.rhsIdx
  rw [dif_neg (show ¬(1 : Fin S8x64x3.rank) ∈ dot_S8x4096x3_S8x64x3_S8x4096x64_2_2_1_1_0_0.rhsBatch by decide), dif_pos (show (1 : Fin S8x64x3.rank) ∈ dot_S8x4096x3_S8x64x3_S8x4096x64_2_2_1_1_0_0.rhsNonContracting by decide)]
  rfl
theorem rhs_2 (i : S8x4096x64.Idx) (q : dot_S8x4096x3_S8x64x3_S8x4096x64_2_2_1_1_0_0.contr.Idx) : (dot_S8x4096x3_S8x64x3_S8x4096x64_2_2_1_1_0_0.rhsIdx i q 2).val = (q ⟨0, by decide⟩).val :=
  dot_S8x4096x3_S8x64x3_S8x4096x64_2_2_1_1_0_0.rhsIdx_val_of_single rfl i q

/-- The inner products of the rows of x0 with the rows of the tile: at (b, n, c) the sum over the coordinate k of
    x0 (b, n, k) · x1 (b, c, k). -/
theorem inner_apply (x0 : FVec Ideal S8x4096x3 .f32) (x1 : FVec Ideal S8x64x3 .f32) (b : Fin 8) (n : Fin 4096) (c : Fin 64) :
    matmul (F := Ideal) dot_S8x4096x3_S8x64x3_S8x4096x64_2_2_1_1_0_0 none x0 x1 (constant (F := Ideal) S8x4096x64 .f32 0x00000000#32) (ix3 b n c)
      = ∑ k : Fin 3, x0 (ix3 b n k) * x1 (ix3 b c k) := by
  refine (Ideal.matmul_constant_zero_apply dot_S8x4096x3_S8x64x3_S8x4096x64_2_2_1_1_0_0 none x0 x1 (ix3 b n c)).trans ?_
  rw [← Equiv.sum_comp (contrEquiv1 dot_S8x4096x3_S8x64x3_S8x4096x64_2_2_1_1_0_0 3 rfl rfl).symm]
  refine Finset.sum_congr rfl fun k _ => ?_
  have hk := contrEquiv1_symm_val dot_S8x4096x3_S8x64x3_S8x4096x64_2_2_1_1_0_0 3 rfl rfl k
  have el : dot_S8x4096x3_S8x64x3_S8x4096x64_2_2_1_1_0_0.lhsIdx (ix3 b n c) ((contrEquiv1 dot_S8x4096x3_S8x64x3_S8x4096x64_2_2_1_1_0_0 3 rfl rfl).symm k) = ix3 b n k := funext fun a => Fin.ext (by
    match a with
    | ⟨0, _⟩ => exact lhs_0 _ _
    | ⟨1, _⟩ => exact lhs_1 _ _
    | ⟨2, _⟩ => exact (lhs_2 _ _).trans hk)
  have er : dot_S8x4096x3_S8x64x3_S8x4096x64_2_2_1_1_0_0.rhsIdx (ix3 b n c) ((contrEquiv1 dot_S8x4096x3_S8x64x3_S8x4096x64_2_2_1_1_0_0 3 rfl rfl).symm k) = ix3 b c k := funext fun a => Fin.ext (by
    match a with
    | ⟨0, _⟩ => exact rhs_0 _ _
    | ⟨1, _⟩ => exact rhs_1 _ _
    | ⟨2, _⟩ => exact (rhs_2 _ _).trans hk)
  rw [el, er]

/-! ## The tile's distances and their two reductions -/

/-- The tile's clamped squared distances. -/
theorem tile_dist (x0 : Vec Ideal S8x4096x3 .f32) (x1 : Vec Ideal S8x64x3 .f32) (b : Fin 8) (n : Fin 4096) (c : Fin 64) :
    k0_pay1 (F := Ideal) x0 x1 (ix3 b n c)
      = Chamfer.dist two zero (fun b n k => x0 (ix3 b n k)) (fun b c k => x1 (ix3 b c k)) b n c := by
  unfold k0_pay1 Chamfer.dist
  simp only [shapeCast_self]
  refine congrArg₂ max (congrArg₂ (· - ·) (congrArg₂ (· + ·) ?_ ?_) (congrArg₂ (· * ·) rfl ?_)) rfl
  · refine (Broadcast3.broadcastTo_ab1_abc_apply _ _ b n c).trans ?_
    refine (Broadcast3.shapeCast_ab_ab1_apply _ _ b n (0 : Fin 1)).trans ?_
    exact Broadcast3.multiReduction_add_trailing (mulf x0 x0) _ _ _ _ b n
  · refine (Broadcast3.broadcastTo_a1b_acb_apply _ _ b n c).trans ?_
    refine (Broadcast3.shapeCast_ab_a1b_apply _ _ b (0 : Fin 1) c).trans ?_
    exact Broadcast3.multiReduction_add_trailing (mulf x1 x1) _ _ _ _ b c
  · exact inner_apply x0 x1 b n c

/-- For each row, the minimum of its distances to the tile's 64 points. -/
theorem tile_rowmin (x0 : Vec Ideal S8x4096x3 .f32) (x1 : Vec Ideal S8x64x3 .f32) (b : Fin 8) (n : Fin 4096) :
    k0_pay2 (F := Ideal) x0 x1 (ix2 b n)
      = (Finset.univ : Finset (Fin 64)).fold min top (fun c => k0_pay1 (F := Ideal) x0 x1 (ix3 b n c)) := by
  unfold k0_pay2
  exact Lib.MinReduce.multiReduction_min_trailing (k0_pay1 (F := Ideal) x0 x1) _ _ _ _ b n

/-- The sum over the tile's 64 points of each point's minimum distance to all 4096 rows. -/
theorem tile_colsum (x0 : Vec Ideal S8x4096x3 .f32) (x1 : Vec Ideal S8x64x3 .f32) (b : Fin 8) :
    k0_pay3 (F := Ideal) x0 x1 (ix1 b)
      = ∑ c : Fin 64, (Finset.univ : Finset (Fin 4096)).fold min top (fun n => k0_pay1 (F := Ideal) x0 x1 (ix3 b n c)) := by
  unfold k0_pay3
  refine (BlockLayout.multiReduction_add_trailing2 _ _ _ _ _ b).trans ?_
  exact Finset.sum_congr rfl fun c _ => Lib.MinReduce.multiReduction_min_middle (k0_pay1 (F := Ideal) x0 x1) _ _ _ _ b c

/-! ## What is kept across tiles, and the finalisation -/

variable {F : FTy → Type} [FloatOps F]

/-- At the first tile the kept row minima are the tile's, -/
theorem first_min (x0 : Vec F S8x4096x3 .f32) (x1 : Vec F S8x64x3 .f32) : k0_pay4 x0 x1 = k0_pay2 x0 x1 := by
  unfold k0_pay4; exact shapeCast_self _ _

/-- and the kept sum is the tile's. -/
theorem first_sum (x0 : Vec F S8x4096x3 .f32) (x1 : Vec F S8x64x3 .f32) : k0_pay5 x0 x1 = k0_pay3 x0 x1 := by
  unfold k0_pay5; exact shapeCast_self _ _

/-- At a later tile the kept row minimum is the smaller of what was kept and the tile's, -/
theorem kept_min (x0 : Vec Ideal S8x4096x3 .f32) (x1 : Vec Ideal S8x64x3 .f32) (v : Vec Ideal S8x4096 .f32) (b : Fin 8) (n : Fin 4096) :
    k0_pay6 (F := Ideal) x0 x1 v (ix2 b n) = min (v (ix2 b n)) (k0_pay2 (F := Ideal) x0 x1 (ix2 b n)) := by
  unfold k0_pay6
  rw [shapeCast_self]
  rfl

/-- and the kept sum is what was kept plus the tile's. -/
theorem kept_sum (x0 : Vec Ideal S8x4096x3 .f32) (x1 : Vec Ideal S8x64x3 .f32) (v : Vec Ideal S8 .f32) (b : Fin 8) :
    k0_pay7 (F := Ideal) x0 x1 v (ix1 b) = v (ix1 b) + k0_pay3 (F := Ideal) x0 x1 (ix1 b) := by
  unfold k0_pay7
  rw [shapeCast_self]
  rfl

/-- The output entry: the sum of the kept row minima divided by 4096.0, plus the kept sum times 2⁻¹². -/
theorem finish (v31 : Vec Ideal S8x4096 .f32) (v35 : Vec Ideal S8 .f32) (b : Fin 8) :
    k0_pay8 (F := Ideal) v31 v35 (ix1 b)
      = Ideal.div (∑ n : Fin 4096, v31 (ix2 b n)) (Ideal.ofBits .f32 0x45800000#32)
        + v35 (ix1 b) * Ideal.ofBits .f32 0x39800000#32 := by
  unfold k0_pay8
  refine congrArg₂ (· + ·) (congrArg₂ Ideal.div ?_ rfl) rfl
  exact BlockLayout.multiReduction_add_trailing2 v31 _ _ _ _ b

end Cert.KernelIdeal.TileValues

end
-- ==== Proof.KernelValue.lean ====
/-
  The kernel's kept values and its output, as the chamfer distance of the two clouds the region finds.

  X is the array of the window that is resident for the whole grid (its one block is the whole array), Y the array of the
  tiled window: at grid point t the tile is rows 64 t … 64 t + 63 of Y (`block_X`, `block_Y`: a block's entry is the array's
  at block index × block size + the coordinate inside the block). So the tile's distances are the distances to the
  columns `Chamfer.col t c` of the whole distance matrix (`tile_dist_at`), the row minima kept after point n are the running
  minimum over tiles 0 … n, the kept sum the running sum (`keptMin_value`, `keptSum_value`, by induction on the point),
  and after the last tile these are the minimum over all of Y's points and the sum over all of Y's points
  (`Chamfer.runMin_tiles`, `Chamfer.runSum_tiles`): the output entry of batch b is `Chamfer.perBatch` (`out_value`).
-/
import proofs.«135565_j65747359367629_1_alg».proof.Proof.KernelAccum
import proofs.«135565_j65747359367629_1_alg».proof.Proof.TileValues

noncomputable section

open Idealize.ShloMosaic Idealize.ShloMosaic.TcCoe Idealize.SL.Sem Idealize.ShloMosaic.ValueIdx

namespace Cert.KernelIdeal.CloudValue

open Cert.KernelIdeal Cert.KernelIdeal.Gen Cert.KernelIdeal.Accum Cert.KernelIdeal.TileValues Cert

variable (m : (ℓ : Loc nD τ sig) → Buf (Elt Ideal) ℓ)

/-- The resident cloud, as the region finds it, by coordinates. -/
abbrev X (c : Dev nD) : Fin 8 → Fin 4096 → Fin 3 → EReal :=
  fun b n k => (V m c main_v21 : S8x4096x3.Idx → EReal) (ix3 b n k)
/-- The tiled cloud, as the region finds it, by coordinates. -/
abbrev Y (c : Dev nD) : Fin 8 → Fin 4096 → Fin 3 → EReal :=
  fun b mm k => (V m c main_v10 : S8x4096x3.Idx → EReal) (ix3 b mm k)

/-- The resident window's block index is zero on every axis; the tiled window's is the grid point on the point axis. -/
theorem index_X : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)
theorem index_Y : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)

/-- The resident window's block is the whole array. -/
theorem block_X (c : Dev nD) (t : Fin cfg0.N) (b : Fin 8) (n : Fin 4096) (k : Fin 3) :
    (iblk m c 0 t : Vec Ideal S8x4096x3 .f32) (ix3 b n k) = X m c b n k := by
  have hi := index_X t
  unfold iblk
  rw [View.read_apply]
  show V m c main_v21 _ = V m c main_v21 _
  congr 1
  funext a
  apply Fin.ext
  match a with
  | ⟨0, _⟩ => show win0_0.index t 0 * 8 + 1 * b.val = b.val; rw [hi.1]; omega
  | ⟨1, _⟩ => show win0_0.index t 1 * 4096 + 1 * n.val = n.val; rw [hi.2.1]; omega
  | ⟨2, _⟩ => show win0_0.index t 2 * 3 + 1 * k.val = k.val; rw [hi.2.2]; omega

/-- The tiled window's block at point t is tile t of the array. -/
theorem block_Y (c : Dev nD) (t : Fin cfg0.N) (ht : t.val < 64) (b : Fin 8) (cc : Fin 64) (k : Fin 3) :
    (iblk m c 1 t : Vec Ideal S8x64x3 .f32) (ix3 b cc k) = Y m c b (Chamfer.col ⟨t.val, ht⟩ cc) k := by
  have hi := index_Y t
  unfold iblk
  rw [View.read_apply]
  show V m c main_v10 _ = V m c main_v10 _
  congr 1
  funext a
  apply Fin.ext
  match a with
  | ⟨0, _⟩ => show win0_1.index t 0 * 8 + 1 * b.val = b.val; rw [hi.1]; omega
  | ⟨1, _⟩ => show win0_1.index t 1 * 64 + 1 * cc.val = 64 * t.val + cc.val; rw [hi.2.1]; omega
  | ⟨2, _⟩ => show win0_1.index t 2 * 3 + 1 * k.val = k.val; rw [hi.2.2]; omega

/-- The distance depends on its two points only through their coordinates. -/
theorem dist_congr (two zero : EReal) {NX NY NX' NY' : ℕ} (A : Fin 8 → Fin NX → Fin 3 → EReal) (B : Fin 8 → Fin NY → Fin 3 → EReal)
    (A' : Fin 8 → Fin NX' → Fin 3 → EReal) (B' : Fin 8 → Fin NY' → Fin 3 → EReal) (b : Fin 8) (n : Fin NX) (mm : Fin NY)
    (n' : Fin NX') (mm' : Fin NY') (hA : ∀ k, A b n k = A' b n' k) (hB : ∀ k, B b mm k = B' b mm' k) :
    Chamfer.dist two zero A B b n mm = Chamfer.dist two zero A' B' b n' mm' := by
  unfold Chamfer.dist
  simp only [hA, hB]

/-- The tile's distances at point t are the distances to the columns of tile t. -/
theorem tile_dist_at (c : Dev nD) (t : Fin cfg0.N) (ht : t.val < 64) (b : Fin 8) (n : Fin 4096) (cc : Fin 64) :
    k0_pay1 (F := Ideal) (iblk m c 0 t) (iblk m c 1 t) (ix3 b n cc)
      = Chamfer.dist two zero (X m c) (Y m c) b n (Chamfer.col ⟨t.val, ht⟩ cc) :=
  (tile_dist (iblk m c 0 t) (iblk m c 1 t) b n cc).trans
    (dist_congr two zero _ _ (X m c) (Y m c) b n cc n (Chamfer.col ⟨t.val, ht⟩ cc)
      (fun k => block_X m c t b n k) (fun k => block_Y m c t ht b cc k))

/-- Tile j's minimum for row r, and tile j's sum of column minima, of the whole distance matrix. -/
def tileMin (c : Dev nD) (b : Fin 8) (r : Fin 4096) (j : Fin 64) : EReal :=
  (Finset.univ : Finset (Fin 64)).fold min top (fun cc => Chamfer.dist two zero (X m c) (Y m c) b r (Chamfer.col j cc))
def tileSum (c : Dev nD) (b : Fin 8) (j : Fin 64) : EReal :=
  ∑ cc : Fin 64, (Finset.univ : Finset (Fin 4096)).fold min top (fun n => Chamfer.dist two zero (X m c) (Y m c) b n (Chamfer.col j cc))

theorem tile_rowmin_at (c : Dev nD) (t : Fin cfg0.N) (ht : t.val < 64) (b : Fin 8) (r : Fin 4096) :
    k0_pay2 (F := Ideal) (iblk m c 0 t) (iblk m c 1 t) (ix2 b r) = tileMin m c b r ⟨t.val, ht⟩ :=
  (tile_rowmin (iblk m c 0 t) (iblk m c 1 t) b r).trans
    (congrArg (Finset.fold min top · Finset.univ) (funext fun cc => tile_dist_at m c t ht b r cc))

theorem tile_colsum_at (c : Dev nD) (t : Fin cfg0.N) (ht : t.val < 64) (b : Fin 8) :
    k0_pay3 (F := Ideal) (iblk m c 0 t) (iblk m c 1 t) (ix1 b) = tileSum m c b ⟨t.val, ht⟩ :=
  (tile_colsum (iblk m c 0 t) (iblk m c 1 t) b).trans
    (Finset.sum_congr rfl fun cc _ =>
      congrArg (Finset.fold min top · Finset.univ) (funext fun n => tile_dist_at m c t ht b n cc))

/-- The row minima kept after point n are the running minimum of the tiles' row minima. -/
theorem keptMin_value (c : Dev nD) : ∀ (n : ℕ) (h : n < cfg0.N) (h' : n < 64) (b : Fin 8) (r : Fin 4096),
    keptMin m c n h (ix2 b r) = Chamfer.runMin (tileMin m c b r) n h'
  | 0, h, h', b, r => by
    rw [keptMin_zero, first_min]
    exact tile_rowmin_at m c ⟨0, h⟩ h' b r
  | n + 1, h, h', b, r => by
    rw [keptMin_succ]
    refine (kept_min (iblk m c 0 ⟨n + 1, h⟩) (iblk m c 1 ⟨n + 1, h⟩) (keptMin m c n (Nat.lt_of_succ_lt h)) b r).trans ?_
    rw [keptMin_value c n (Nat.lt_of_succ_lt h) (Nat.lt_of_succ_lt h') b r]
    exact congrArg (min _) (tile_rowmin_at m c ⟨n + 1, h⟩ h' b r)

/-- The sum kept after point n is the running sum of the tiles' sums. -/
theorem keptSum_value (c : Dev nD) : ∀ (n : ℕ) (h : n < cfg0.N) (h' : n < 64) (b : Fin 8),
    keptSum m c n h (ix1 b) = Chamfer.runSum (tileSum m c b) n h'
  | 0, h, h', b => by
    rw [keptSum_zero, first_sum]
    exact tile_colsum_at m c ⟨0, h⟩ h' b
  | n + 1, h, h', b => by
    rw [keptSum_succ]
    refine (kept_sum (iblk m c 0 ⟨n + 1, h⟩) (iblk m c 1 ⟨n + 1, h⟩) (keptSum m c n (Nat.lt_of_succ_lt h)) b).trans ?_
    rw [keptSum_value c n (Nat.lt_of_succ_lt h) (Nat.lt_of_succ_lt h') b]
    exact congrArg (_ + ·) (tile_colsum_at m c ⟨n + 1, h⟩ h' b)

/-- The output entry of batch b after the last tile: the chamfer distance of the two clouds of that batch. -/
theorem out_value (c : Dev nD) (h : 62 + 1 < cfg0.N) (b : Fin 8) :
    k0_pay8 (F := Ideal) (keptMin m c (62 + 1) h) (keptSum m c (62 + 1) h) (ix1 b)
      = Chamfer.perBatch two zero top (Ideal.ofBits .f32 0x45800000#32) (Ideal.ofBits .f32 0x39800000#32) (X m c) (Y m c) b := by
  have h64 : 62 + 1 < 64 := by omega
  have e1 : ∀ n : Fin 4096, keptMin m c (62 + 1) h (ix2 b n)
      = (Finset.univ : Finset (Fin 4096)).fold min top (fun mm => Chamfer.dist two zero (X m c) (Y m c) b n mm) := fun n =>
    (keptMin_value m c (62 + 1) h h64 b n).trans
      (Chamfer.runMin_tiles top (fun mm => Chamfer.dist two zero (X m c) (Y m c) b n mm) (tileMin m c b n) (fun j => rfl) h64)
  have e2 : keptSum m c (62 + 1) h (ix1 b)
      = ∑ mm : Fin 4096, (Finset.univ : Finset (Fin 4096)).fold min top (fun n => Chamfer.dist two zero (X m c) (Y m c) b n mm) :=
    (keptSum_value m c (62 + 1) h h64 b).trans
      (Chamfer.runSum_tiles (fun mm => (Finset.univ : Finset (Fin 4096)).fold min top (fun n => Chamfer.dist two zero (X m c) (Y m c) b n mm))
        (tileSum m c b) (fun j => rfl) h64)
  refine (finish (keptMin m c (62 + 1) h) (keptSum m c (62 + 1) h) b).trans ?_
  unfold Chamfer.perBatch
  rw [e2]
  simp only [e1]

end Cert.KernelIdeal.CloudValue

end
-- ==== Proof.RefChamfer.lean ====
/-
  The reference program's stages read as the chamfer distance of its two deformed clouds.

  Its clouds are X = stage %21 (from the second parameter block) and Y = stage %10 (from the first). Stage %36 is the
  clamped squared distance of point n of X and point m of Y (`ref_dist`: the two squared norms are host sums started from
  0.0, laid along rows and columns by broadcasts; the inner products a batched contraction); stages %37 and %41 its
  minima over m and over n (`ref_rowmin`, `ref_colmin`, each started from +inf); stage %45, per batch, the two means
  added (`ref_perBatch`), each a host sum started from 0.0 and divided by 4096.0.
-/
import proofs.«135565_j65747359367629_1_alg».proof.Proof.Gen.ReferenceIdeal.Read
import proofs.«135565_j65747359367629_1_alg».proof.Proof.Chamfer
import proofs.«135565_j65747359367629_1_alg».proof.Proof.LibMinReduce
import Idealize.ShloMosaic.Lib.ValueIdx
import Idealize.ShloMosaic.PureOps.Ideal.Laws

noncomputable section

open Idealize.ShloMosaic Idealize.ShloMosaic.ValueIdx

namespace Cert.ReferenceIdeal.RefChamfer

open Cert.ReferenceIdeal Cert.ReferenceIdeal.Gen Cert.ReferenceIdeal.Read Cert

abbrev two : EReal := Ideal.ofBits .f32 0x40000000#32
abbrev zero : EReal := Ideal.ofBits .f32 0x00000000#32
abbrev top : EReal := Ideal.ofBits .f32 0x7F800000#32

variable (x0 x1 : (⟨S8x65, .f32⟩ : BufTy).Contents (Elt Ideal)) (x2 : (⟨S12288, .f32⟩ : BufTy).Contents (Elt Ideal))
  (x3 : (⟨S64x12288, .f32⟩ : BufTy).Contents (Elt Ideal)) (x4 : (⟨S12288, .f32⟩ : BufTy).Contents (Elt Ideal))
  (x5 : (⟨S64x12288, .f32⟩ : BufTy).Contents (Elt Ideal))

/-- The cloud whose every point is kept (stage %21), by coordinates. -/
abbrev X : Fin 8 → Fin 4096 → Fin 3 → EReal := fun b n k => val_main_v21 (F := Ideal) x1 x4 x5 (ix3 b n k)
/-- The other cloud (stage %10), by coordinates. -/
abbrev Y : Fin 8 → Fin 4096 → Fin 3 → EReal := fun b mm k => val_main_v10 (F := Ideal) x0 x2 x3 (ix3 b mm k)

/-- Stage %36 at (b, n, m): the clamped squared distance of point n of X and point m of Y. -/
theorem ref_dist (b : Fin 8) (n mm : Fin 4096) :
    val_main_v36 (F := Ideal) x0 x1 x2 x3 x4 x5 (ix3 b n mm) = Chamfer.dist two zero (X x1 x4 x5) (Y x0 x2 x3) b n mm := by
  have e29 : idx_main_v29 (ix3 b n mm) = ix3 b n (0 : Fin 1) := funext fun a => Fin.ext (by
    match a with
    | ⟨0, _⟩ => rfl
    | ⟨1, _⟩ => rfl
    | ⟨2, _⟩ => rfl)
  have e27 : idx_main_v27 (ix3 b n (0 : Fin 1)) = ix2 b n := funext fun a => Fin.ext (by
    match a with
    | ⟨0, _⟩ => rfl
    | ⟨1, _⟩ => rfl)
  have e23 : ∀ k : Fin 3, idx_main_v23 (ix2 b n) k = ix3 b n k := fun k => funext fun a => Fin.ext (by
    match a with
    | ⟨0, _⟩ => rfl
    | ⟨1, _⟩ => rfl
    | ⟨2, _⟩ => rfl)
  have e30 : idx_main_v30 (ix3 b n mm) = ix3 b (0 : Fin 1) mm := funext fun a => Fin.ext (by
    match a with
    | ⟨0, _⟩ => rfl
    | ⟨1, _⟩ => rfl
    | ⟨2, _⟩ => rfl)
  have e28 : idx_main_v28 (ix3 b (0 : Fin 1) mm) = ix2 b mm := funext fun a => Fin.ext (by
    match a with
    | ⟨0, _⟩ => rfl
    | ⟨1, _⟩ => rfl)
  have e25 : ∀ k : Fin 3, idx_main_v25 (ix2 b mm) k = ix3 b mm k := fun k => funext fun a => Fin.ext (by
    match a with
    | ⟨0, _⟩ => rfl
    | ⟨1, _⟩ => rfl
    | ⟨2, _⟩ => rfl)
  have el : ∀ k : Fin 3, lidx_main_v26 (ix3 b n mm) k = ix3 b n k := fun k => funext fun a => Fin.ext (by
    match a with
    | ⟨0, _⟩ => rfl
    | ⟨1, _⟩ => rfl
    | ⟨2, _⟩ => rfl)
  have er : ∀ k : Fin 3, ridx_main_v26 (ix3 b n mm) k = ix3 b mm k := fun k => funext fun a => Fin.ext (by
    match a with
    | ⟨0, _⟩ => rfl
    | ⟨1, _⟩ => rfl
    | ⟨2, _⟩ => rfl)
  rw [val_main_v36_apply, val_main_v34_apply, val_main_v31_apply, val_main_v29_apply, e29, val_main_v27_apply, e27,
    val_main_v23_apply, val_main_v30_apply, e30, val_main_v28_apply, e28, val_main_v25_apply, val_main_v33_apply,
    val_main_v32_apply, val_main_v26_apply, val_main_v35_apply]
  simp only [e23, e25, el, er, val_main_v22_apply, val_main_v24_apply]
  exact Chamfer.dist_of_init two zero (Ideal.ofBits .f32 0x00000000#32) Chamfer.ofBits_zero (X x1 x4 x5) (Y x0 x2 x3) b n mm

/-- Stage %37 at (b, n): the minimum over the points m of Y of the distances to point n of X. -/
theorem ref_rowmin (b : Fin 8) (n : Fin 4096) :
    val_main_v37 (F := Ideal) x0 x1 x2 x3 x4 x5 (ix2 b n)
      = (Finset.univ : Finset (Fin 4096)).fold min top (fun mm => Chamfer.dist two zero (X x1 x4 x5) (Y x0 x2 x3) b n mm) := by
  unfold val_main_v37
  refine (Lib.MinReduce.hostMin_trailing (val_main_v36 (F := Ideal) x0 x1 x2 x3 x4 x5) (val_main_cst_3 (F := Ideal))
    reducesTo_S8x4096x4096_S8x4096_d2 (by decide) h_S_ b n).trans ?_
  exact congrArg (Finset.fold min _ · Finset.univ) (funext fun mm => ref_dist x0 x1 x2 x3 x4 x5 b n mm)

/-- Stage %41 at (b, m): the minimum over the points n of X of the distances to point m of Y. -/
theorem ref_colmin (b : Fin 8) (mm : Fin 4096) :
    val_main_v41 (F := Ideal) x0 x1 x2 x3 x4 x5 (ix2 b mm)
      = (Finset.univ : Finset (Fin 4096)).fold min top (fun n => Chamfer.dist two zero (X x1 x4 x5) (Y x0 x2 x3) b n mm) := by
  unfold val_main_v41
  refine (Lib.MinReduce.hostMin_middle (val_main_v36 (F := Ideal) x0 x1 x2 x3 x4 x5) (val_main_cst_6 (F := Ideal))
    reducesTo_S8x4096x4096_S8x4096_d1 (by decide) h_S_ b mm).trans ?_
  exact congrArg (Finset.fold min _ · Finset.univ) (funext fun n => ref_dist x0 x1 x2 x3 x4 x5 b n mm)

/-- Stage %45 at b: the distance of the two clouds of batch b. -/
theorem ref_perBatch (b : Fin 8) :
    val_main_v45 (F := Ideal) x0 x1 x2 x3 x4 x5 (ix1 b)
      = Chamfer.perBatch two zero top (Ideal.ofBits .f32 0x45800000#32) (Ideal.ofBits .f32 0x39800000#32)
          (X x1 x4 x5) (Y x0 x2 x3) b := by
  have e38 : ∀ k : Fin 4096, idx_main_v38 (ix1 b) k = ix2 b k := fun k => funext fun a => Fin.ext (by
    match a with
    | ⟨0, _⟩ => rfl
    | ⟨1, _⟩ => rfl)
  have e42 : ∀ k : Fin 4096, idx_main_v42 (ix1 b) k = ix2 b k := fun k => funext fun a => Fin.ext (by
    match a with
    | ⟨0, _⟩ => rfl
    | ⟨1, _⟩ => rfl)
  rw [val_main_v45_apply, val_main_v40_apply, val_main_v38_apply, val_main_v39_apply, val_main_v44_apply,
    val_main_v42_apply, val_main_v43_apply]
  simp only [e38, e42, ref_rowmin, ref_colmin]
  exact Chamfer.perBatch_of_init two zero top (Ideal.ofBits .f32 0x00000000#32) Chamfer.ofBits_zero (X x1 x4 x5) (Y x0 x2 x3) b

end Cert.ReferenceIdeal.RefChamfer

end
-- ==== Proof.HostPrefix.lean ====
/-
  The two clouds the region finds are the reference's two deformed clouds.

  Before the region @main deforms each mean shape by its parameter block — slice off the scale, multiply the basis,
  add the mean, scale, reshape to points — with the same host operations, in the same order and at the same shapes, as
  the reference program. So the array the resident window stages is the reference's stage %21 of the same arguments, and
  the array the tiled window stages its stage %10: both sides are one term.
-/
import proofs.«135565_j65747359367629_1_alg».proof.Proof.Gen.KernelIdeal.Frame
import proofs.«135565_j65747359367629_1_alg».proof.Proof.Gen.ReferenceIdeal.Read
import Idealize.ShloMosaic.Lib.StableHlo.Run
import Idealize.ShloMosaic.Lib.Tactic

noncomputable section

open Idealize.ShloMosaic Idealize.ShloMosaic.TcCoe Idealize.SL.Sem

namespace Cert.KernelIdeal.HostPrefix

open Cert.KernelIdeal Cert.KernelIdeal.Gen

variable (m : (ℓ : Loc nD τ sig) → Buf (Elt Ideal) ℓ)

set_option maxRecDepth 8192 in
set_option maxHeartbeats 2000000 in
/-- The resident cloud is the reference's stage %21 of the second parameter block, mean and basis. -/
theorem V_X (c : Dev nD) :
    (V m c main_v21 : S8x4096x3.Idx → EReal)
      = Cert.ReferenceIdeal.Read.val_main_v21 (F := Ideal) (m ((c : Thread nD τ).loc main_arg1))
          (m ((c : Thread nD τ).loc main_arg4)) (m ((c : Thread nD τ).loc main_arg5)) := by
  show StableHlo.after hostOps0 (fun b => m (c, b)) (Proc.devRef .tc main_v21) = _
  after_results
  rfl

set_option maxRecDepth 8192 in
set_option maxHeartbeats 2000000 in
/-- The tiled cloud is the reference's stage %10 of the first parameter block, mean and basis. -/
theorem V_Y (c : Dev nD) :
    (V m c main_v10 : S8x4096x3.Idx → EReal)
      = Cert.ReferenceIdeal.Read.val_main_v10 (F := Ideal) (m ((c : Thread nD τ).loc main_arg0))
          (m ((c : Thread nD τ).loc main_arg2)) (m ((c : Thread nD τ).loc main_arg3)) := by
  show StableHlo.after hostOps0 (fun b => m (c, b)) (Proc.devRef .tc main_v10) = _
  after_results
  rfl

end Cert.KernelIdeal.HostPrefix

end
-- ==== Proof.Bridge.lean ====
/-
  The two programs compute one number.

  Both end with the same mean over the eight batches of a per-batch value. The reference's per-batch stage, read as the
  chamfer distance of its two clouds (RefChamfer), and the kernel's output array, read as the chamfer distance of the two
  clouds the region finds (KernelValue), are the same function of the arguments because the clouds are the same
  (HostPrefix): `perBatch_eq`. Hence the results agree: `result_eq`.
-/
import proofs.«135565_j65747359367629_1_alg».proof.Proof.KernelRun
import proofs.«135565_j65747359367629_1_alg».proof.Proof.KernelValue
import proofs.«135565_j65747359367629_1_alg».proof.Proof.RefChamfer
import proofs.«135565_j65747359367629_1_alg».proof.Proof.HostPrefix

noncomputable section

open Idealize.ShloMosaic Idealize.ShloMosaic.TcCoe Idealize.SL.Sem Idealize.ShloMosaic.ValueIdx

namespace Cert.Bridge

variable (m : (ℓ : Loc Cert.KernelIdeal.nD Cert.KernelIdeal.τ Cert.KernelIdeal.sig) → Buf (Elt Ideal) ℓ) (c : Dev Cert.KernelIdeal.nD)

/-- The reference's per-batch stage, of the kernel program's arguments, is the array the kernel leaves after its region. -/
theorem perBatch_eq :
    Cert.ReferenceIdeal.Read.val_main_v45 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      = (Cert.KernelIdeal.Result.result m c : Cert.KernelIdeal.S8.Idx → EReal) := by
  funext i
  obtain ⟨b, rfl⟩ : ∃ b : Fin 8, i = ix1 b := ⟨i 0, eq_ix1 i⟩
  have hX : Cert.ReferenceIdeal.RefChamfer.X (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = Cert.KernelIdeal.CloudValue.X m c := by
    funext b n k; exact (congrFun (Cert.KernelIdeal.HostPrefix.V_X m c) (ix3 b n k)).symm
  have hY : Cert.ReferenceIdeal.RefChamfer.Y (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) = Cert.KernelIdeal.CloudValue.Y m c := by
    funext b n k; exact (congrFun (Cert.KernelIdeal.HostPrefix.V_Y m c) (ix3 b n k)).symm
  refine (Cert.ReferenceIdeal.RefChamfer.ref_perBatch (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) b).trans ?_
  refine Eq.trans ?_ (Cert.KernelIdeal.CloudValue.out_value m c Cert.KernelIdeal.Result.hLast b).symm
  exact congrArg₂ (fun A B => Chamfer.perBatch Cert.KernelIdeal.TileValues.two Cert.KernelIdeal.TileValues.zero Cert.KernelIdeal.TileValues.top
    (Ideal.ofBits .f32 0x45800000#32) (Ideal.ofBits .f32 0x39800000#32) A B b) hX hY

/-- So the reference's result, of the kernel program's arguments, is the kernel program's result. -/
theorem result_eq :
    Cert.ReferenceIdeal.Read.val_main_v47 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      = Cert.KernelIdeal.Result.batchMean (Cert.KernelIdeal.Result.result m c) := by
  unfold Cert.ReferenceIdeal.Read.val_main_v47 Cert.ReferenceIdeal.Read.val_main_v46
  rw [perBatch_eq m c]
  rfl

end Cert.Bridge

end
-- ==== Proof.lean ====
/-
  A chamfer-distance kernel against its jnp reference, over the extended reals.

  Both programs deform two mean shapes into point clouds X and Y of 4096 points per batch (the same host operations), form
  the clamped squared distances d(b, n, m) = max (|X(b,n)|² + |Y(b,m)|² − 2 ⟨X(b,n), Y(b,m)⟩) 0, and return the mean over the
  eight batches of (mean over n of min over m of d) + (mean over m of min over n of d).

  The reference takes the two minima over the whole 4096 × 4096 matrix. The kernel visits Y a tile of 64 points at a time:
  it keeps, per row n, the minimum over the tiles seen so far, and, per batch, the sum over the tiles seen so far of the
  column minima (each complete within its tile, every tile holding all 4096 rows); after the last tile it divides the sum of
  the kept row minima by 4096 and multiplies the kept sum by 2⁻¹². On the extended reals a minimum over all points is the
  running minimum over the tiles and a sum over all points the running sum (min and + are commutative and associative;
  nothing needs the inputs finite), and multiplying by 2⁻¹² is dividing by 4096. So the two results are one number.

    frames      — the kernel's, at both readings, is the generated frame; the reference's is its generated run.
    preserves   — the idealization rewrote no operation.
    algebraic   — the kernel's run ends at the mean of its output array (KernelRun), the reference's at its stage %47
                  (the generated run); these agree (Bridge: KernelValue over KernelAccum / KernelPieces / TileValues on one
                  side, RefChamfer on the other, HostPrefix for the clouds, Chamfer for the two laws).
-/
import proofs.«135565_j65747359367629_1_alg».proof.Defs
import proofs.«135565_j65747359367629_1_alg».proof.Proof.Gen.Kernel
import proofs.«135565_j65747359367629_1_alg».proof.Proof.Gen.Kernel.Skeleton
import proofs.«135565_j65747359367629_1_alg».proof.Proof.Gen.Kernel.Launch
import proofs.«135565_j65747359367629_1_alg».proof.Proof.Gen.Kernel.Points
import proofs.«135565_j65747359367629_1_alg».proof.Proof.Gen.Kernel.Frame
import proofs.«135565_j65747359367629_1_alg».proof.Proof.Gen.KernelIdeal
import proofs.«135565_j65747359367629_1_alg».proof.Proof.Gen.KernelIdeal.Skeleton
import proofs.«135565_j65747359367629_1_alg».proof.Proof.Gen.KernelIdeal.Launch
import proofs.«135565_j65747359367629_1_alg».proof.Proof.Gen.KernelIdeal.Points
import proofs.«135565_j65747359367629_1_alg».proof.Proof.Gen.KernelIdeal.Frame
import proofs.«135565_j65747359367629_1_alg».proof.Proof.Gen.ReferenceIdeal
import proofs.«135565_j65747359367629_1_alg».proof.Proof.Gen.Pre_finite_inputs
import proofs.«135565_j65747359367629_1_alg».proof.Proof.Gen.ReferenceIdeal.Read
import proofs.«135565_j65747359367629_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree, the kernel program ends at the mean of the array its region leaves and the reference at its
    last stage of the same arguments: one number. -/
theorem algebraic : Cert.algebraic_KernelIdeal_ReferenceIdeal := by
  intro m ρ m' ρ' _ hagree
  refine ⟨fun c => Cert.KernelIdeal.Result.batchMean (Cert.KernelIdeal.Result.result m c),
    Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, (hagree c).1, (hagree c).2.1, (hagree c).2.2.1, (hagree c).2.2.2.1, (hagree c).2.2.2.2.1, (hagree c).2.2.2.2.2]
  exact Cert.Bridge.result_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
